-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x128 : Shape := ⟨2, ![400, 128]⟩
abbrev S400x64 : Shape := ⟨2, ![400, 64]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x64, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S10000x64, .f32⟩
  | .local _ .vmem, ⟨8, _⟩ => ⟨S10000x128, .f32⟩
  | .local _ .vmem, ⟨9, _⟩ => ⟨S10000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_14 : Index := 0#32
  ![v23.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off2 (i : grid0.Coords) : Fin 2 → Nat :=
  let arg1 : BitVec 32 := BitVec.ofNat 32 (i 1).val
  let c400_i32 : BitVec 32 := 400#32
  let v20 : BitVec 32 := Scalar.muli arg1 c400_i32
  let v21 : Index := Scalar.indexCast v20
  let c0_11 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S10000x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off2_inb : ∀ i : grid0.Coords, ∀ (k0_h3 : k0_cond3 i = 1#1), ∀ a, (k0_off2 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S10000x64.size a
  hwx0_6 : ∀ i : grid0.Coords, EltTy.bits .f32 = 32 ∨ (Rect.block (s := S10000x64) S10000x64.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S10000x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000x64, .f32⟩
  | .hbm, ⟨21, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/- A two-layer graph convolution as one function of the argument arrays, entry by entry, over the extended reals:
   out = relu(adj · (relu(adj · (x · W1) + b1) · W2) + b2).
   Every matrix product is the finite sum over the contracted index; the relu's threshold is the single-precision
   word 0x00000000 read as an extended real and is never evaluated. -/
import Idealize.ShloMosaic.PureOps.Ideal
import Idealize.ShloMosaic.Lib.ValueIdx

noncomputable section

open scoped BigOperators

namespace Cert.Net

open Idealize.ShloMosaic Idealize.ShloMosaic.ValueIdx

/-- The relu's threshold. -/
abbrev thr : EReal := Ideal.ofBits .f32 0x00000000#32

/-- The support x · W1 at (n, j). -/
def support (x : (⟨2, ![10000, 128]⟩ : Shape).Idx → EReal) (w1 : (⟨2, ![128, 128]⟩ : Shape).Idx → EReal) :
    (⟨2, ![10000, 128]⟩ : Shape).Idx → EReal :=
  fun y => ∑ k : Fin 128, x (ix2 (y 0) k) * w1 (ix2 k (y 1))

/-- The first layer followed by the second weight, relu(adj · s + b1) · W2, at (n, q). -/
def hidden (adj : (⟨2, ![10000, 10000]⟩ : Shape).Idx → EReal) (s : (⟨2, ![10000, 128]⟩ : Shape).Idx → EReal)
    (b1 : Fin 128 → EReal) (w2 : (⟨2, ![128, 64]⟩ : Shape).Idx → EReal) : (⟨2, ![10000, 64]⟩ : Shape).Idx → EReal :=
  fun y => ∑ h : Fin 128, max ((∑ k : Fin 10000, adj (ix2 (y 0) k) * s (ix2 k h)) + b1 h) thr * w2 (ix2 h (y 1))

/-- The second layer relu(adj · hh + b2) at (n, q). -/
def layer2 (adj : (⟨2, ![10000, 10000]⟩ : Shape).Idx → EReal) (hh : (⟨2, ![10000, 64]⟩ : Shape).Idx → EReal)
    (b2 : Fin 64 → EReal) : (⟨2, ![10000, 64]⟩ : Shape).Idx → EReal :=
  fun y => max ((∑ k : Fin 10000, adj (ix2 (y 0) k) * hh (ix2 k (y 1))) + b2 (y 1)) thr

/-- The whole network. -/
def gcn (x : (⟨2, ![10000, 128]⟩ : Shape).Idx → EReal) (adj : (⟨2, ![10000, 10000]⟩ : Shape).Idx → EReal)
    (w1 : (⟨2, ![128, 128]⟩ : Shape).Idx → EReal) (b1 : Fin 128 → EReal) (w2 : (⟨2, ![128, 64]⟩ : Shape).Idx → EReal)
    (b2 : Fin 64 → EReal) : (⟨2, ![10000, 64]⟩ : Shape).Idx → EReal :=
  layer2 adj (hidden adj (support x w1) b1 w2) b2

end Cert.Net

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«133060_g3075196584310_cont_9to1_627_5_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibGcnLayerReads.lean ====
/-
  A GRAPH-CONVOLUTION LAYER AND A FEATURE PROJECTION, ONE ROW AT A TIME, READ AT AN ENTRY.

  Two row functions over the extended reals, and the four ways a program spells them.

  `projRow x F f W q` is entry q of (x·F + f)·W for one row x of features: a projection followed by a weight.
  `layerRow a S b W q` is entry q of relu(a·S + b)·W for one row a of an adjacency matrix: a graph-convolution layer
  followed by the next weight. Entry (r, q) of a product depends on row r of its left factor only, and a bias is
  added to every row alike, so both are functions of ONE ROW of the left factor and of the bias as a function of the
  column. Whoever computes such a stage — on the whole matrix, or on a stripe of its rows — computes these at each of
  its rows; that is why cutting the left factor into stripes of rows changes nothing. The relu's threshold is kept as
  the float word 0x00000000 read as an extended real, never evaluated.

  A kernel writes a product as a multiply-accumulate into a block of zeros, repeats a [1, n] bias row down the rows
  of its block, takes operands in a narrower float format, and writes the relu as a maximum with a splat zero
  (`kernel_proj_at`, `kernel_layer_at`). A host program writes a product as a dot, broadcasts an [n] bias vector to
  a row and then down the rows, and writes the relu as a maximum with a broadcast scalar zero (`host_proj_at`,
  `host_layer_at`). At entry (r, q) each of the four is the row function at row r of the left factor: a product's
  entry is the sum over the contracted index of left(r, k) · right(k, q), a repeated row reads the row's entry of
  that column, and a change of float format is the identity on the extended reals. The sums are finite sums of
  extended reals, whose addition is commutative and associative; no other law is used, and none that needs finite
  entries. Everything is generic in the sizes, so one lemma serves a whole matrix and a stripe of its rows.
-/
import Idealize.ShloMosaic.PureOps.Ideal.Laws
import Idealize.ShloMosaic.Lib.ValueIdx
import Idealize.ShloMosaic.Lib.ValueLayout
import Idealize.ShloMosaic.Lib.Pipeline.Value
import proofs.«133060_g3075196584310_cont_9to1_627_5_alg».proof.Proof.LibRowReads

noncomputable section

open scoped BigOperators

namespace Cert.Gcn

open Idealize.ShloMosaic Idealize.ShloMosaic.ValueIdx Cert.Lib

/-- The relu's threshold: the single-precision word 0x00000000 as an extended real. -/
abbrev thr : EReal := Ideal.ofBits .f32 0x00000000#32

/-- Entry q of (x·F + f)·W for one row x of the features: the inner sum runs over the features, the outer one over
    the columns of F. -/
def projRow {Fi Fo H : Nat} (x : Fin Fi → EReal) (Fm : (⟨2, ![Fi, Fo]⟩ : Shape).Idx → EReal) (f : Fin Fo → EReal)
    (W : (⟨2, ![Fo, H]⟩ : Shape).Idx → EReal) (q : Fin H) : EReal :=
  ∑ k : Fin Fo, ((∑ a : Fin Fi, x a * Fm (ix2 a k)) + f k) * W (ix2 k q)

/-- Entry q of relu(a·S + b)·W for one row a of the adjacency matrix: the inner sum runs over the nodes, the outer
    one over the hidden columns. -/
def layerRow {Nn H O : Nat} (a : Fin Nn → EReal) (S : (⟨2, ![Nn, H]⟩ : Shape).Idx → EReal) (b : Fin H → EReal)
    (W : (⟨2, ![H, O]⟩ : Shape).Idx → EReal) (q : Fin O) : EReal :=
  ∑ h : Fin H, max ((∑ k : Fin Nn, a k * S (ix2 k h)) + b h) thr * W (ix2 h q)

/-- A record of a plain matrix product: the left factor's columns contracted against the right factor's rows, no
    batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Kernel

/-- A kernel's product into zeros at (r, q). -/
theorem kmm_at {M K N : Nat} {d : DotDims ⟨2, ![M, K]⟩ ⟨2, ![K, N]⟩ ⟨2, ![M, N]⟩} (hd : Plain d) {φ₁ φ₂ : FTy}
    (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  matmul_zero_at d hd.lc hd.rc hd.ln hd.rn hd.lb hd.rb prec a b r q

/-- A [1, n] row, re-laid in its own shape and repeated down the rows of a block: at (r, c), the row's entry c. -/
theorem krow_at {a b : Nat} {φ : FTy} (v : FVec Ideal ⟨2, ![1, b]⟩ φ)
    (h1 : (⟨2, ![1, b]⟩ : Shape).ShapeCasts ⟨2, ![1, b]⟩) (h2 : (⟨2, ![1, b]⟩ : Shape).Broadcasts ⟨2, ![a, b]⟩)
    (r : Fin a) (c : Fin b) :
    broadcastTo ⟨2, ![a, b]⟩ (shapeCast ⟨2, ![1, b]⟩ v h1) h2 (ix2 r c) = v (ix2 (0 : Fin 1) c) := by
  rw [broadcastTo_1b_ab_apply, shapeCast_self]

/-- The projection stage as a kernel writes it — (x·F + f)·W with both products into zeros, the bias a repeated row
    — at (r, q). -/
theorem kernel_proj_at {Nn Fi Fo H : Nat}
    {d1 : DotDims ⟨2, ![Nn, Fi]⟩ ⟨2, ![Fi, Fo]⟩ ⟨2, ![Nn, Fo]⟩} {d2 : DotDims ⟨2, ![Nn, Fo]⟩ ⟨2, ![Fo, H]⟩ ⟨2, ![Nn, H]⟩}
    (h1 : Plain d1) (h2 : Plain d2) (p1 p2 : Option ContractPrecision)
    (x : FVec Ideal ⟨2, ![Nn, Fi]⟩ .f32) (Fm : FVec Ideal ⟨2, ![Fi, Fo]⟩ .f32) (f : FVec Ideal ⟨2, ![1, Fo]⟩ .f32)
    (W : FVec Ideal ⟨2, ![Fo, H]⟩ .f32)
    (cx : (⟨2, ![Nn, Fi]⟩ : Shape).ShapeCasts ⟨2, ![Nn, Fi]⟩) (cf : (⟨2, ![1, Fo]⟩ : Shape).ShapeCasts ⟨2, ![1, Fo]⟩)
    (bf : (⟨2, ![1, Fo]⟩ : Shape).Broadcasts ⟨2, ![Nn, Fo]⟩) (r : Fin Nn) (q : Fin H) :
    matmul d2 p2
        (addf (matmul d1 p1 (shapeCast ⟨2, ![Nn, Fi]⟩ x cx) Fm (constant (F := Ideal) ⟨2, ![Nn, Fo]⟩ .f32 0x00000000#32))
          (broadcastTo ⟨2, ![Nn, Fo]⟩ (shapeCast ⟨2, ![1, Fo]⟩ f cf) bf))
        W (constant (F := Ideal) ⟨2, ![Nn, H]⟩ .f32 0x00000000#32) (ix2 r q)
      = projRow (fun a => x (ix2 r a)) Fm (fun k => f (ix2 (0 : Fin 1) k)) W q := by
  refine (kmm_at h2 p2 _ W r q).trans ?_
  unfold projRow
  refine Finset.sum_congr rfl fun k _ => ?_
  rw [addf_apply, kmm_at h1 p1 _ Fm r k, krow_at f cf bf r k, shapeCast_self]

/-- A graph-convolution layer followed by the next weight, as a kernel writes it on a stripe of the adjacency's
    rows — relu(a·S + b)·W, the stripe and S taken in a narrower float format, both products into zeros, the bias a
    repeated row, the relu a maximum with a splat zero — at (r, q). -/
theorem kernel_layer_at {R Nn H O : Nat}
    {d1 : DotDims ⟨2, ![R, Nn]⟩ ⟨2, ![Nn, H]⟩ ⟨2, ![R, H]⟩} {d2 : DotDims ⟨2, ![R, H]⟩ ⟨2, ![H, O]⟩ ⟨2, ![R, O]⟩}
    (h1 : Plain d1) (h2 : Plain d2) (p1 p2 : Option ContractPrecision)
    (a : FVec Ideal ⟨2, ![R, Nn]⟩ .f32) (S : FVec Ideal ⟨2, ![Nn, H]⟩ .bf16) (b : FVec Ideal ⟨2, ![1, H]⟩ .f32)
    (W : FVec Ideal ⟨2, ![H, O]⟩ .f32) (ht : FTy.bf16.bits < FTy.f32.bits)
    (cS : (⟨2, ![Nn, H]⟩ : Shape).ShapeCasts ⟨2, ![Nn, H]⟩) (cb : (⟨2, ![1, H]⟩ : Shape).ShapeCasts ⟨2, ![1, H]⟩)
    (bb : (⟨2, ![1, H]⟩ : Shape).Broadcasts ⟨2, ![R, H]⟩) (r : Fin R) (q : Fin O) :
    matmul d2 p2
        (maximumf
          (addf (matmul d1 p1 (truncf .bf16 a ht) (shapeCast ⟨2, ![Nn, H]⟩ S cS)
              (constant (F := Ideal) ⟨2, ![R, H]⟩ .f32 0x00000000#32))
            (broadcastTo ⟨2, ![R, H]⟩ (shapeCast ⟨2, ![1, H]⟩ b cb) bb))
          (broadcast ⟨2, ![R, H]⟩ (Scalar.ofBits (F := Ideal) .f32 0x00000000#32)))
        W (constant (F := Ideal) ⟨2, ![R, O]⟩ .f32 0x00000000#32) (ix2 r q)
      = layerRow (fun k => a (ix2 r k)) S (fun h => b (ix2 (0 : Fin 1) h)) W q := by
  refine (kmm_at h2 p2 _ W r q).trans ?_
  unfold layerRow
  refine Finset.sum_congr rfl fun h _ => ?_
  rw [maximumf_apply, addf_apply, kmm_at h1 p1 _ _ r h, krow_at b cb bb r h, shapeCast_self]
  rfl

end Kernel

section Host

/-- The projection stage as a host program writes it — two dots, the bias vector broadcast to a row and then down
    the rows — at (r, q). -/
theorem host_proj_at {Nn Fi Fo H : Nat}
    {d1 : DotDims ⟨2, ![Nn, Fi]⟩ ⟨2, ![Fi, Fo]⟩ ⟨2, ![Nn, Fo]⟩} {d2 : DotDims ⟨2, ![Nn, Fo]⟩ ⟨2, ![Fo, H]⟩ ⟨2, ![Nn, H]⟩}
    (h1 : Plain d1) (h2 : Plain d2) (p1 p2 : Option ContractPrecision)
    (x : FVec Ideal ⟨2, ![Nn, Fi]⟩ .f32) (Fm : FVec Ideal ⟨2, ![Fi, Fo]⟩ .f32) (f : FVec Ideal ⟨1, ![Fo]⟩ .f32)
    (W : FVec Ideal ⟨2, ![Fo, H]⟩ .f32)
    (b1 : (⟨1, ![Fo]⟩ : Shape).BroadcastsInDim ⟨2, ![1, Fo]⟩ ![1])
    (b2 : (⟨2, ![1, Fo]⟩ : Shape).BroadcastsInDim ⟨2, ![Nn, Fo]⟩ ![0, 1]) (r : Fin Nn) (q : Fin H) :
    Host.dotGeneral d2 p2
        (addf (Host.dotGeneral d1 p1 x Fm)
          (broadcastInDim ⟨2, ![Nn, Fo]⟩ ![0, 1] b2 (broadcastInDim ⟨2, ![1, Fo]⟩ ![1] b1 f)))
        W (ix2 r q)
      = projRow (fun a => x (ix2 r a)) Fm (fun k => f (ix1 k)) W q := by
  refine (dotGeneral_at d2 h2.lc h2.rc h2.ln h2.rn h2.lb h2.rb p2 _ W r q).trans ?_
  unfold projRow
  refine Finset.sum_congr rfl fun k _ => ?_
  rw [addf_apply, dotGeneral_at d1 h1.lc h1.rc h1.ln h1.rn h1.lb h1.rb p1 x Fm r k, bcastInDim_vecRows_apply]

/-- A graph-convolution layer followed by the next weight, as a host program writes it on the whole adjacency
    matrix — two dots, the bias vector broadcast, the relu a maximum with a broadcast scalar zero — at (r, q). -/
theorem host_layer_at {Nn H O : Nat}
    {d1 : DotDims ⟨2, ![Nn, Nn]⟩ ⟨2, ![Nn, H]⟩ ⟨2, ![Nn, H]⟩} {d2 : DotDims ⟨2, ![Nn, H]⟩ ⟨2, ![H, O]⟩ ⟨2, ![Nn, O]⟩}
    (h1 : Plain d1) (h2 : Plain d2) (p1 p2 : Option ContractPrecision)
    (A : FVec Ideal ⟨2, ![Nn, Nn]⟩ .f32) (S : FVec Ideal ⟨2, ![Nn, H]⟩ .f32) (b : FVec Ideal ⟨1, ![H]⟩ .f32)
    (W : FVec Ideal ⟨2, ![H, O]⟩ .f32)
    (b1 : (⟨1, ![H]⟩ : Shape).BroadcastsInDim ⟨2, ![1, H]⟩ ![1])
    (b2 : (⟨2, ![1, H]⟩ : Shape).BroadcastsInDim ⟨2, ![Nn, H]⟩ ![0, 1])
    (b0 : (⟨0, ![]⟩ : Shape).BroadcastsInDim ⟨2, ![Nn, H]⟩ ![]) (r : Fin Nn) (q : Fin O) :
    Host.dotGeneral d2 p2
        (maximumf
          (addf (Host.dotGeneral d1 p1 A S)
            (broadcastInDim ⟨2, ![Nn, H]⟩ ![0, 1] b2 (broadcastInDim ⟨2, ![1, H]⟩ ![1] b1 b)))
          (broadcastInDim ⟨2, ![Nn, H]⟩ ![] b0 (constant (F := Ideal) ⟨0, ![]⟩ .f32 0x00000000#32)))
        W (ix2 r q)
      = layerRow (fun k => A (ix2 r k)) S (fun h => b (ix1 h)) W q := by
  refine (dotGeneral_at d2 h2.lc h2.rc h2.ln h2.rn h2.lb h2.rb p2 _ W r q).trans ?_
  unfold layerRow
  refine Finset.sum_congr rfl fun h _ => ?_
  rw [maximumf_apply, addf_apply, dotGeneral_at d1 h1.lc h1.rc h1.ln h1.rn h1.lb h1.rb p1 A S r h,
    bcastInDim_vecRows_apply, bcast_const_apply]

end Host

end Cert.Gcn

end
-- ==== Proof.RefMath.lean ====
/-
  THE REFERENCE PROGRAM'S RESULT IS THE TWO-LAYER GRAPH CONVOLUTION.

  The reference writes out = relu(adj · (relu(adj · (x · W1) + b1) · W2) + b2) as four dots, two bias vectors each
  broadcast to a row and then down the rows, and two maxima with a broadcast scalar zero. At entry (r, q) a dot is the
  finite sum over the contracted index of left(r, k) · right(k, q), a broadcast bias reads the vector's entry of that
  column, and the broadcast zero reads the threshold everywhere. Reading the composed term at (r, q) from the outside
  in gives, sum by sum, the function gcn of the six argument arrays: first the second layer at (r, q), then under its
  sum over the nodes the hidden stage at (k, q), then under that stage's inner sum the support at (k', h). No law of
  the extended reals is used beyond rewriting under finite sums.
-/
import proofs.«133060_g3075196584310_cont_9to1_627_5_alg».proof.Proof.Spec
import proofs.«133060_g3075196584310_cont_9to1_627_5_alg».proof.Proof.LibGcnLayerReads
import proofs.«133060_g3075196584310_cont_9to1_627_5_alg».proof.Proof.Gen.ReferenceIdeal.Run

noncomputable section

open scoped BigOperators

namespace Cert.Net

open Cert.ReferenceIdeal Cert.ReferenceIdeal.Gen Idealize.ShloMosaic Idealize.ShloMosaic.ValueIdx Cert.Lib

/-- The reference's composed result term, as a function of its six argument arrays, is gcn of them. -/
theorem ref_eq (a0 : FVec Ideal Cert.ReferenceIdeal.S10000x128 .f32) (a1 : FVec Ideal Cert.ReferenceIdeal.S10000x10000 .f32)
    (a2 : FVec Ideal Cert.ReferenceIdeal.S128x128 .f32) (a3 : FVec Ideal Cert.ReferenceIdeal.S128 .f32)
    (a4 : FVec Ideal Cert.ReferenceIdeal.S128x64 .f32) (a5 : FVec Ideal Cert.ReferenceIdeal.S64 .f32) :
    maximumf (addf (Host.dotGeneral (F := Ideal) dot_S10000x10000_S10000x64_S10000x64_1_0_0_1_n_n none a1 (Host.dotGeneral (F := Ideal) dot_S10000x128_S128x64_S10000x64_1_0_0_1_n_n none (maximumf (addf (Host.dotGeneral (F := Ideal) dot_S10000x10000_S10000x128_S10000x128_1_0_0_1_n_n none a1 (Host.dotGeneral (F := Ideal) dot_S10000x128_S128x128_S10000x128_1_0_0_1_n_n none a0 a2)) (broadcastInDim S10000x128 ![0, 1] bcast_S1x128_S10000x128_0_1 (broadcastInDim S1x128 ![1] bcast_S128_S1x128_1 a3))) (broadcastInDim S10000x128 ![] bcast_S_S10000x128 (constant (F := Ideal) S_ .f32 0x00000000#32))) a4)) (broadcastInDim S10000x64 ![0, 1] bcast_S1x64_S10000x64_0_1 (broadcastInDim S1x64 ![1] bcast_S64_S1x64_1 a5))) (broadcastInDim S10000x64 ![] bcast_S_S10000x64 (constant (F := Ideal) S_ .f32 0x00000000#32))
      = gcn a0 a1 a2 (fun h => a3 (ix1 h)) a4 (fun q => a5 (ix1 q)) := by
  funext y
  obtain ⟨r, q, rfl⟩ : ∃ r q, y = ix2 r q := ⟨y 0, y 1, eq_ix2 y⟩
  rw [maximumf_apply, addf_apply,
    dotGeneral_at dot_S10000x10000_S10000x64_S10000x64_1_0_0_1_n_n rfl rfl rfl rfl rfl rfl,
    bcastInDim_vecRows_apply, bcast_const_apply]
  show _ = max ((∑ k : Fin 10000, a1 (ix2 r k) *
      hidden a1 (support a0 a2) (fun h => a3 (ix1 h)) a4 (ix2 k q)) + a5 (ix1 q)) thr
  congr 2
  refine Finset.sum_congr rfl fun k _ => ?_
  congr 1
  rw [dotGeneral_at dot_S10000x128_S128x64_S10000x64_1_0_0_1_n_n rfl rfl rfl rfl rfl rfl]
  show _ = ∑ h : Fin 128, max ((∑ k' : Fin 10000, a1 (ix2 k k') * support a0 a2 (ix2 k' h)) + a3 (ix1 h)) thr
      * a4 (ix2 h q)
  refine Finset.sum_congr rfl fun h _ => ?_
  rw [maximumf_apply, addf_apply,
    dotGeneral_at dot_S10000x10000_S10000x128_S10000x128_1_0_0_1_n_n rfl rfl rfl rfl rfl rfl,
    bcastInDim_vecRows_apply, bcast_const_apply]
  congr 3
  refine Finset.sum_congr rfl fun k' _ => ?_
  congr 1
  exact dotGeneral_at dot_S10000x128_S128x128_S10000x128_1_0_0_1_n_n rfl rfl rfl rfl rfl rfl none a0 a2 k' h

end Cert.Net

end
-- ==== Proof.HandKernelIdeal.Pure.lean ====
/- Rows of a matrix overwritten by a block, and what a whole buffer reads after one store: the two readings the
   kernel body's stores need. The body stores either a whole buffer or a band of `r` consecutive rows starting at
   row `o`; a band store leaves every other row as it was. -/
import Idealize.ShloMosaic.Lib.WritesUnit
import Idealize.ShloMosaic.Lib.ValueIdx
import Idealize.ShloMosaic.Lib.Pipeline.Frame
import Idealize.ShloMosaic.Lib.Pipeline.FrameBody
import Idealize.ShloMosaic.Lib.Pipeline.Value

noncomputable section

namespace Cert.KernelIdeal.Hand

open Idealize.ShloMosaic Idealize.ShloMosaic.ValueIdx

/-- The matrix `d` with rows `o, …, o + r - 1` replaced by the rows of `w`. -/
def putRows {α : Type} {n b : ℕ} (r o : ℕ) (d : (⟨2, ![n, b]⟩ : Shape).Idx → α) (w : (⟨2, ![r, b]⟩ : Shape).Idx → α) :
    (⟨2, ![n, b]⟩ : Shape).Idx → α :=
  fun y => if h : o ≤ (y 0).val ∧ (y 0).val < o + r then w (ix2 ⟨(y 0).val - o, by omega⟩ (y 1)) else d y

/-- Inside the band the new rows are read. -/
theorem putRows_of_mem {α : Type} {n b : ℕ} (r o : ℕ) (d : (⟨2, ![n, b]⟩ : Shape).Idx → α) (w : (⟨2, ![r, b]⟩ : Shape).Idx → α)
    (y : (⟨2, ![n, b]⟩ : Shape).Idx) (h : o ≤ (y 0).val ∧ (y 0).val < o + r) :
    putRows r o d w y = w (ix2 ⟨(y 0).val - o, by omega⟩ (y 1)) := dif_pos h

/-- Outside the band the old rows are read. -/
theorem putRows_of_not_mem {α : Type} {n b : ℕ} (r o : ℕ) (d : (⟨2, ![n, b]⟩ : Shape).Idx → α) (w : (⟨2, ![r, b]⟩ : Shape).Idx → α)
    (y : (⟨2, ![n, b]⟩ : Shape).Idx) (h : ¬(o ≤ (y 0).val ∧ (y 0).val < o + r)) :
    putRows r o d w y = d y := dif_neg h

variable {sig : RefSig} {κ : Kind} {sp : Space} {e : EltTy} {Val : EltTy → Type}

/-- A whole buffer holding `d`, after one store of the band of rows `[o, o + r)`, reads `d` with those rows replaced. -/
theorem read_put_rows {n b r : ℕ} (m : Memref sig κ sp (⟨2, ![n, b]⟩ : Shape) e) (hm : m.IsWhole)
    (d : (⟨2, ![n, b]⟩ : Shape).Idx → Val e) (off : Fin 2 → ℕ)
    (inb : ∀ a : Fin 2, off a + (![r, b] : Fin 2 → ℕ) a ≤ (![n, b] : Fin 2 → ℕ) a)
    (w : (Rect.unit (s := ⟨2, ![n, b]⟩) off ![r, b] inb).shape.Idx → Val e) (o : ℕ) (hoff : off = ![o, 0]) :
    m.view.read Val (m.view.writes Val (hm.unread d) [⟨Rect.unit (s := ⟨2, ![n, b]⟩) off ![r, b] inb, w⟩]) = putRows r o d w := by
  funext y
  by_cases h : o ≤ (y (0 : Fin 2)).val ∧ (y (0 : Fin 2)).val < o + r
  · rw [putRows_of_mem r o d w y h]
    exact View.read_writes_cons_rows_of_mem m.view (hm.unread d) inb w [] y
      (ix2 ⟨(y (0 : Fin 2)).val - o, by omega⟩ (y 1)) hoff (by show _ = o + ((y (0 : Fin 2)).val - o); omega) rfl
  · rw [putRows_of_not_mem r o d w y h,
      View.read_writes_cons_rows_of_not_mem m.view (hm.unread d) inb w [] y hoff (show (![r, b] : Fin 2 → ℕ) (0 : Fin 2) = r from rfl) (by omega),
      View.writes_nil, hm.read_unread]

/-- A whole buffer, after one store of all of it, reads what was stored. -/
theorem read_put_whole {S : Shape} (m : Memref sig κ sp S e) (f : m.view.ty.Contents Val) (off : Fin S.rank → ℕ)
    (hz : off = fun _ => 0) (inb : ∀ a, off a + S.size a ≤ S.size a) (w : S.Idx → Val e) :
    m.view.read Val (m.view.writes Val f [⟨Rect.unit off S.size inb, w⟩]) = w := by
  funext y
  exact View.read_writes_cons_unit_of_mem m.view f inb w [] y y hz (fun a => (Nat.zero_add _).symm)

/-- A load of all of a whole buffer reads its contents. -/
theorem readAt_whole {S : Shape} (m : Memref sig κ sp S e) (f : m.view.ty.Contents Val) (off : Fin S.rank → ℕ)
    (hz : off = fun _ => 0) (inb : ∀ a, off a + S.size a ≤ S.size a) :
    m.view.readAt Val (Rect.unit off S.size inb).toLoadRect f = m.view.read Val f := by
  rw [View.readAt_eq_ld, View.ld_unit_zero hz]

end Cert.KernelIdeal.Hand

end
-- ==== Proof.HandKernelIdeal.Sched.lean ====
/- The kernel's control over its 2 × 25 grid, in closed form. Point t (row-major) is in the first phase when t < 25 and
   in the second when 25 ≤ t; the prologue runs at point 0 only; in either phase the band of rows the point stores starts
   at row 400 · (t mod 25). -/
import proofs.«133060_g3075196584310_cont_9to1_627_5_alg».proof.Proof.Gen.KernelIdeal.Points
import proofs.«133060_g3075196584310_cont_9to1_627_5_alg».proof.Proof.Gen.KernelIdeal.Launch
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue's condition (first phase and first block), as the body computes it. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first phase's condition. -/
abbrev cond1 (i : grid0.Coords) : Prop := k0_cond2 i = 1#1
/-- The second phase's condition. -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 25 :=
  (by decide +kernel : ∀ t : Fin grid0.N, cond1 (grid0.coords t) ↔ t.val < 25)
theorem hcond2 : ∀ t : Fin cfg0.N, cond2 (grid0.coords t) ↔ 25 ≤ t.val :=
  (by decide +kernel : ∀ t : Fin grid0.N, cond2 (grid0.coords t) ↔ 25 ≤ t.val)

/-- The first phase's band starts at row 400 · (t mod 25). -/
theorem off1_eq : ∀ t : Fin cfg0.N, k0_off1 (grid0.coords t) = ![400 * (t.val % 25), 0] :=
  (by decide +kernel : ∀ t : Fin grid0.N, k0_off1 (grid0.coords t) = ![400 * (t.val % 25), 0])
/-- So does the second phase's. -/
theorem off2_eq : ∀ t : Fin cfg0.N, k0_off2 (grid0.coords t) = ![400 * (t.val % 25), 0] :=
  (by decide +kernel : ∀ t : Fin grid0.N, k0_off2 (grid0.coords t) = ![400 * (t.val % 25), 0])

/-- The adjacency's stripe at point t is block t mod 25 of its rows. -/
theorem index1_eq : ∀ t : Fin cfg0.N, (cfg0.win 1).index t = ![t.val % 25, 0] :=
  (by decide +kernel : ∀ t : Fin grid0.N, win0_1.index t = ![t.val % 25, 0])
/-- Every other window's block is the whole array at every point. -/
theorem index0_eq : ∀ t : Fin cfg0.N, (cfg0.win 0).index t = ![0, 0] :=
  (by decide +kernel : ∀ t : Fin grid0.N, win0_0.index t = ![0, 0])
theorem index2_eq : ∀ t : Fin cfg0.N, (cfg0.win 2).index t = ![0, 0] :=
  (by decide +kernel : ∀ t : Fin grid0.N, win0_2.index t = ![0, 0])
theorem index3_eq : ∀ t : Fin cfg0.N, (cfg0.win 3).index t = ![0, 0] :=
  (by decide +kernel : ∀ t : Fin grid0.N, win0_3.index t = ![0, 0])
theorem index4_eq : ∀ t : Fin cfg0.N, (cfg0.win 4).index t = ![0, 0] :=
  (by decide +kernel : ∀ t : Fin grid0.N, win0_4.index t = ![0, 0])
theorem index5_eq : ∀ t : Fin cfg0.N, (cfg0.win 5).index t = ![0, 0] :=
  (by decide +kernel : ∀ t : Fin grid0.N, win0_5.index t = ![0, 0])
theorem index6_eq : ∀ t : Fin cfg0.N, (cfg0.win 6).index t = ![0, 0] :=
  (by decide +kernel : ∀ t : Fin grid0.N, win0_6.index t = ![0, 0])

/-- The output is not fetched. -/
theorem fetch6 : ∀ t : Fin cfg0.N, (cfg0.win 6).fetch t = false :=
  (by decide +kernel : ∀ t : Fin grid0.N, win0_6.fetch t = false)

end Cert.KernelIdeal.Hand

end
-- ==== Proof.HandKernelIdeal.Blocks.lean ====
/- What the kernel computes, as functions of the blocks the pipeline hands its body: the support (one product, at the
   first point), the hidden matrix (row band j at point j of the first phase) and the output (row band j at point 25 + j of
   the second phase). Row n lies in band n / 400 at position n mod 400. -/
import proofs.«133060_g3075196584310_cont_9to1_627_5_alg».proof.Proof.Gen.KernelIdeal.Frame
import proofs.«133060_g3075196584310_cont_9to1_627_5_alg».proof.Proof.Gen.KernelIdeal.Skeleton
import proofs.«133060_g3075196584310_cont_9to1_627_5_alg».proof.Proof.HandKernelIdeal.Pure
import proofs.«133060_g3075196584310_cont_9to1_627_5_alg».proof.Proof.HandKernelIdeal.Sched
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Grid point n. -/
def pt (n : ℕ) (h : n < 50) : Fin cfg0.N := ⟨n, lt_of_lt_of_eq h N_0.symm⟩

@[simp] theorem pt_val (n : ℕ) (h : n < 50) : (pt n h).val = n := rfl

/-- The first point. -/
abbrev t0 : Fin cfg0.N := pt 0 (by omega)

/-- A row's band is below 25. -/
theorem band_lt (y : S10000x64.Idx) : (y 0).val / 400 < 25 := by
  have : (y 0).val < 10000 := (y 0).isLt
  omega

/-- The position of an entry of a 10000-row matrix inside its band of 400 rows. -/
def inBand (y : S10000x64.Idx) : S400x64.Idx := ValueIdx.ix2 ⟨(y 0).val % 400, Nat.mod_lt _ (by omega)⟩ (y 1)

/-- The support x · W1, as the prologue computes it from the blocks of the features and the first weight. -/
def kS1 (c : Dev nD) : Vec F S10000x128 .f32 := k0_pay1 (iblk m c 0 t0) (iblk m c 2 t0)

/-- The hidden matrix: each band of rows as the first phase computes it at the band's point. -/
def kH2 (c : Dev nD) : Vec F S10000x64 .f32 := fun y =>
  k0_pay2 (iblk m c 1 (pt ((y 0).val / 400) (by have := band_lt y; omega))) (kS1 m c) (iblk m c 3 t0) (iblk m c 4 t0) (inBand y)

/-- The output: each band of rows as the second phase computes it at the band's point. -/
def kOUT (c : Dev nD) : Vec F S10000x64 .f32 := fun y =>
  k0_pay3 (iblk m c 1 (pt (25 + (y 0).val / 400) (by have := band_lt y; omega))) (kH2 m c) (iblk m c 5 t0) (inBand y)

end Cert.KernelIdeal.Hand

end
-- ==== Proof.PayMath.lean ====
/-
  THE KERNEL BODY'S THREE STORED VALUES, READ AT AN ENTRY.

  The body stores three values. The first is the product x · W1 written as a multiply-accumulate into a block of
  zeros. The second, on a stripe of 400 rows of the adjacency matrix, is relu(a · s + b) · W: a product into zeros, a
  [1, 128] bias row repeated down the stripe's rows, a maximum with a splat zero, and a second product into zeros. The
  third, on the same stripe, is relu(a · hh + b): a product into zeros, a [1, 64] bias row repeated down the rows, and
  a maximum with a splat zero. At entry (r, q) a product into zeros is the finite sum over the contracted index of
  left(r, k) · right(k, q), a repeated row reads the row's entry of that column, a re-laying of a block in its own
  shape changes nothing, and the splat zero reads the threshold. Nothing else is used.
-/
import proofs.«133060_g3075196584310_cont_9to1_627_5_alg».proof.Proof.Spec
import proofs.«133060_g3075196584310_cont_9to1_627_5_alg».proof.Proof.LibGcnLayerReads
import proofs.«133060_g3075196584310_cont_9to1_627_5_alg».proof.Proof.Gen.KernelIdeal.Skeleton

noncomputable section

open scoped BigOperators

namespace Cert.Net

open Cert.KernelIdeal Cert.KernelIdeal.Gen Idealize.ShloMosaic Idealize.ShloMosaic.ValueIdx Cert.Lib

/-- The first stored value, x · W1, at (r, q). -/
theorem pay1_at (x : Vec Ideal Cert.KernelIdeal.S10000x128 .f32) (w : Vec Ideal Cert.KernelIdeal.S128x128 .f32)
    (r : Fin 10000) (q : Fin 128) :
    Cert.KernelIdeal.Gen.k0_pay1 (F := Ideal) x w (ix2 r q) = ∑ k : Fin 128, x (ix2 r k) * w (ix2 k q) := by
  unfold Cert.KernelIdeal.Gen.k0_pay1
  rw [shapeCast_self]
  exact Cert.Gcn.kmm_at (d := dot_S10000x128_S128x128_S10000x128_1_0_0_1_n_n) ⟨rfl, rfl, rfl, rfl, rfl, rfl⟩ none x w r q

/-- The second stored value, relu(a · s + b) · W on a stripe of rows, at (r, q). -/
theorem pay2_at (a : Vec Ideal Cert.KernelIdeal.S400x10000 .f32) (s : Vec Ideal Cert.KernelIdeal.S10000x128 .f32)
    (b : Vec Ideal Cert.KernelIdeal.S1x128 .f32) (w : Vec Ideal Cert.KernelIdeal.S128x64 .f32)
    (r : Fin 400) (q : Fin 64) :
    Cert.KernelIdeal.Gen.k0_pay2 (F := Ideal) a s b w (ix2 r q)
      = ∑ h : Fin 128, max ((∑ k : Fin 10000, a (ix2 r k) * s (ix2 k h)) + b (ix2 (0 : Fin 1) h)) thr * w (ix2 h q) := by
  unfold Cert.KernelIdeal.Gen.k0_pay2
  rw [shapeCast_self]
  refine (Cert.Gcn.kmm_at (d := dot_S400x128_S128x64_S400x64_1_0_0_1_n_n) ⟨rfl, rfl, rfl, rfl, rfl, rfl⟩ none _ w r q).trans ?_
  refine Finset.sum_congr rfl fun h _ => ?_
  rw [maximumf_apply, addf_apply,
    Cert.Gcn.kmm_at (d := dot_S400x10000_S10000x128_S400x128_1_0_0_1_n_n) ⟨rfl, rfl, rfl, rfl, rfl, rfl⟩ none a s r h,
    Cert.Gcn.krow_at b shapeCasts_S1x128_S1x128 broadcasts_S1x128_S400x128 r h]
  rfl

/-- The third stored value, relu(a · hh + b) on a stripe of rows, at (r, q). -/
theorem pay3_at (a : Vec Ideal Cert.KernelIdeal.S400x10000 .f32) (hh : Vec Ideal Cert.KernelIdeal.S10000x64 .f32)
    (b : Vec Ideal Cert.KernelIdeal.S1x64 .f32) (r : Fin 400) (q : Fin 64) :
    Cert.KernelIdeal.Gen.k0_pay3 (F := Ideal) a hh b (ix2 r q)
      = max ((∑ k : Fin 10000, a (ix2 r k) * hh (ix2 k q)) + b (ix2 (0 : Fin 1) q)) thr := by
  unfold Cert.KernelIdeal.Gen.k0_pay3
  rw [maximumf_apply, addf_apply,
    Cert.Gcn.kmm_at (d := dot_S400x10000_S10000x64_S400x64_1_0_0_1_n_n) ⟨rfl, rfl, rfl, rfl, rfl, rfl⟩ none a hh r q,
    Cert.Gcn.krow_at b shapeCasts_S1x64_S1x64 broadcasts_S1x64_S400x64 r q]
  rfl

end Cert.Net

end
-- ==== Proof.KValue.lean ====
/-
  WHAT THE KERNEL COMPUTES IS THE TWO-LAYER GRAPH CONVOLUTION OF THE LAUNCHED ARRAYS.

  The kernel's support, hidden matrix and output are given band by band, as the body's three stored values of the blocks
  it is handed. Each block is read back off the launched arrays: the features, the two weights and the two bias rows
  are whole arrays (block index (0, 0)), the bias rows being the bias vectors re-laid as [1, n] rows before the kernel
  starts; the adjacency's stripe at a point p is rows 400 · (p mod 25) … 400 · (p mod 25) + 399. Row n of a 10000-row
  matrix lies in band n / 400 at position n mod 400, and 400 · (n / 400) + n mod 400 = n, so the stripe of band n / 400
  at position n mod 400 is row n of the adjacency — at the first phase's point n / 400 and at the second phase's point
  25 + n / 400 alike. With the stored values read at an entry as finite sums, the support is x · W1 entry by entry,
  the hidden matrix is relu(adj · support + b1) · W2, and the output is relu(adj · hidden + b2).
-/
import proofs.«133060_g3075196584310_cont_9to1_627_5_alg».proof.Proof.HandKernelIdeal.Blocks
import proofs.«133060_g3075196584310_cont_9to1_627_5_alg».proof.Proof.PayMath
import proofs.«133060_g3075196584310_cont_9to1_627_5_alg».proof.Proof.Spec

set_option maxRecDepth 16384

noncomputable section

open scoped BigOperators

namespace Cert.KernelIdeal.KValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-! ## The blocks, read off the launched arrays -/

/-- Window 0's block is its whole array, as launched: at (r, k), the array's entry (r, k). -/
theorem blk0_at (t : Fin cfg0.N) (r : Fin 10000) (k : Fin 128) :
    (iblk m c 0 t : Vec Ideal S10000x128 .f32) (ix2 r k) = m ((c.tc : Thread nD τ).loc main_arg0) (ix2 r k) := by
  show V m c main_arg0 (((cfg0.win 0).blk t).view.emb (ix2 r k)) = _
  rw [V_main_arg0]
  refine congrArg _ ?_
  funext a; apply Fin.ext
  have e := index0_eq t
  match a with
  | ⟨0, _⟩ =>
    show win0_0.index t (0 : Fin 2) * 10000 + 1 * r.val = r.val
    have h0 : win0_0.index t (0 : Fin 2) = 0 := congrFun e 0
    omega
  | ⟨1, _⟩ =>
    show win0_0.index t (1 : Fin 2) * 128 + 1 * k.val = k.val
    have h1 : win0_0.index t (1 : Fin 2) = 0 := congrFun e 1
    omega

/-- The adjacency's stripe at point t is rows 400 · (t mod 25) onward: at (r, k), the adjacency's entry
    (400 · (t mod 25) + r, k). -/
theorem blk1_at (t : Fin cfg0.N) (r : Fin 400) (k : Fin 10000) (hr : 400 * (t.val % 25) + r.val < 10000) :
    (iblk m c 1 t : Vec Ideal S400x10000 .f32) (ix2 r k)
      = m ((c.tc : Thread nD τ).loc main_arg1) (ix2 (⟨400 * (t.val % 25) + r.val, hr⟩ : Fin 10000) k) := by
  show V m c main_arg1 (((cfg0.win 1).blk t).view.emb (ix2 r k)) = _
  rw [V_main_arg1]
  refine congrArg _ ?_
  funext a; apply Fin.ext
  have e := index1_eq t
  match a with
  | ⟨0, _⟩ =>
    show win0_1.index t (0 : Fin 2) * 400 + 1 * r.val = 400 * (t.val % 25) + r.val
    have h0 : win0_1.index t (0 : Fin 2) = t.val % 25 := congrFun e 0
    omega
  | ⟨1, _⟩ =>
    show win0_1.index t (1 : Fin 2) * 10000 + 1 * k.val = k.val
    have h1 : win0_1.index t (1 : Fin 2) = 0 := congrFun e 1
    omega

/-- Row n of the adjacency, read in the stripe of any point p with p mod 25 = n / 400, at position n mod 400. -/
theorem adj_row_at (n : Fin 10000) (k : Fin 10000) (p : ℕ) (hp : p < 50) (hpn : p % 25 = n.val / 400)
    (hlt : n.val % 400 < 400) :
    (iblk m c 1 (pt p hp) : Vec Ideal S400x10000 .f32) (ix2 (⟨n.val % 400, hlt⟩ : Fin 400) k)
      = m ((c.tc : Thread nD τ).loc main_arg1) (ix2 n k) := by
  have hn : n.val < 10000 := n.isLt
  have hr : 400 * ((pt p hp).val % 25) + (⟨n.val % 400, hlt⟩ : Fin 400).val < 10000 := by
    show 400 * (p % 25) + n.val % 400 < 10000
    omega
  rw [blk1_at m c (pt p hp) ⟨n.val % 400, hlt⟩ k hr]
  refine congrArg (fun r : Fin 10000 => m ((c.tc : Thread nD τ).loc main_arg1) (ix2 r k)) ?_
  apply Fin.ext
  show 400 * (p % 25) + n.val % 400 = n.val
  omega

/-- Window 2's block is its whole array, as launched: at (r, k), the array's entry (r, k). -/
theorem blk2_at (t : Fin cfg0.N) (r : Fin 128) (k : Fin 128) :
    (iblk m c 2 t : Vec Ideal S128x128 .f32) (ix2 r k) = m ((c.tc : Thread nD τ).loc main_arg2) (ix2 r k) := by
  show V m c main_arg2 (((cfg0.win 2).blk t).view.emb (ix2 r k)) = _
  rw [V_main_arg2]
  refine congrArg _ ?_
  funext a; apply Fin.ext
  have e := index2_eq t
  match a with
  | ⟨0, _⟩ =>
    show win0_2.index t (0 : Fin 2) * 128 + 1 * r.val = r.val
    have h0 : win0_2.index t (0 : Fin 2) = 0 := congrFun e 0
    omega
  | ⟨1, _⟩ =>
    show win0_2.index t (1 : Fin 2) * 128 + 1 * k.val = k.val
    have h1 : win0_2.index t (1 : Fin 2) = 0 := congrFun e 1
    omega

/-- Window 3's array is the bias vector re-laid as a [1, 128] row before the kernel starts. -/
theorem v0_eq : (V m c main_v0 : S1x128.Idx → EReal)
    = shapeCast S1x128 (m ((c.tc : Thread nD τ).loc main_arg3)) shapeCasts_S128_S1x128 := by
  dsimp only [Gen.V, Gen.hostOps0]; after_results; rfl

/-- Window 3's block is that whole row: at (0, h), the bias vector's entry h. -/
theorem blk3_at (t : Fin cfg0.N) (h : Fin 128) :
    (iblk m c 3 t : Vec Ideal S1x128 .f32) (ix2 (0 : Fin 1) h) = m ((c.tc : Thread nD τ).loc main_arg3) (ix1 h) := by
  show V m c main_v0 (((cfg0.win 3).blk t).view.emb (ix2 (0 : Fin 1) h)) = _
  have e := index3_eq t
  have hi : ((cfg0.win 3).blk t).view.emb (ix2 (0 : Fin 1) h) = (ix2 (0 : Fin 1) h : S1x128.Idx) := by
    funext a; apply Fin.ext
    match a with
    | ⟨0, _⟩ =>
      show win0_3.index t (0 : Fin 2) * 1 + 1 * (0 : Fin 1).val = (0 : Fin 1).val
      have h0 : win0_3.index t (0 : Fin 2) = 0 := congrFun e 0
      omega
    | ⟨1, _⟩ =>
      show win0_3.index t (1 : Fin 2) * 128 + 1 * h.val = h.val
      have h1 : win0_3.index t (1 : Fin 2) = 0 := congrFun e 1
      omega
  rw [hi, v0_eq]
  exact shapeCast_a_1a_apply _ _ _ _

/-- Window 4's block is its whole array, as launched: at (r, k), the array's entry (r, k). -/
theorem blk4_at (t : Fin cfg0.N) (r : Fin 128) (k : Fin 64) :
    (iblk m c 4 t : Vec Ideal S128x64 .f32) (ix2 r k) = m ((c.tc : Thread nD τ).loc main_arg4) (ix2 r k) := by
  show V m c main_arg4 (((cfg0.win 4).blk t).view.emb (ix2 r k)) = _
  rw [V_main_arg4]
  refine congrArg _ ?_
  funext a; apply Fin.ext
  have e := index4_eq t
  match a with
  | ⟨0, _⟩ =>
    show win0_4.index t (0 : Fin 2) * 128 + 1 * r.val = r.val
    have h0 : win0_4.index t (0 : Fin 2) = 0 := congrFun e 0
    omega
  | ⟨1, _⟩ =>
    show win0_4.index t (1 : Fin 2) * 64 + 1 * k.val = k.val
    have h1 : win0_4.index t (1 : Fin 2) = 0 := congrFun e 1
    omega

/-- Window 5's array is the bias vector re-laid as a [1, 64] row before the kernel starts. -/
theorem v1_eq : (V m c main_v1 : S1x64.Idx → EReal)
    = shapeCast S1x64 (m ((c.tc : Thread nD τ).loc main_arg5)) shapeCasts_S64_S1x64 := by
  dsimp only [Gen.V, Gen.hostOps0]; after_results; rfl

/-- Window 5's block is that whole row: at (0, h), the bias vector's entry h. -/
theorem blk5_at (t : Fin cfg0.N) (h : Fin 64) :
    (iblk m c 5 t : Vec Ideal S1x64 .f32) (ix2 (0 : Fin 1) h) = m ((c.tc : Thread nD τ).loc main_arg5) (ix1 h) := by
  show V m c main_v1 (((cfg0.win 5).blk t).view.emb (ix2 (0 : Fin 1) h)) = _
  have e := index5_eq t
  have hi : ((cfg0.win 5).blk t).view.emb (ix2 (0 : Fin 1) h) = (ix2 (0 : Fin 1) h : S1x64.Idx) := by
    funext a; apply Fin.ext
    match a with
    | ⟨0, _⟩ =>
      show win0_5.index t (0 : Fin 2) * 1 + 1 * (0 : Fin 1).val = (0 : Fin 1).val
      have h0 : win0_5.index t (0 : Fin 2) = 0 := congrFun e 0
      omega
    | ⟨1, _⟩ =>
      show win0_5.index t (1 : Fin 2) * 64 + 1 * h.val = h.val
      have h1 : win0_5.index t (1 : Fin 2) = 0 := congrFun e 1
      omega
  rw [hi, v1_eq]
  exact shapeCast_a_1a_apply _ _ _ _

/-! ## The three stages -/

/-- The launched arrays, as functions into the extended reals. -/
abbrev arr0 : S10000x128.Idx → EReal := m ((c.tc : Thread nD τ).loc main_arg0)
abbrev arr1 : S10000x10000.Idx → EReal := m ((c.tc : Thread nD τ).loc main_arg1)
abbrev arr2 : S128x128.Idx → EReal := m ((c.tc : Thread nD τ).loc main_arg2)
abbrev arr3 : S128.Idx → EReal := m ((c.tc : Thread nD τ).loc main_arg3)
abbrev arr4 : S128x64.Idx → EReal := m ((c.tc : Thread nD τ).loc main_arg4)
abbrev arr5 : S64.Idx → EReal := m ((c.tc : Thread nD τ).loc main_arg5)

/-- The kernel's support is x · W1. -/
theorem kS1_eq : kS1 (F := Ideal) m c
    = Cert.Net.support (m ((c.tc : Thread nD τ).loc main_arg0)) (m ((c.tc : Thread nD τ).loc main_arg2)) := by
  funext y
  obtain ⟨n, j, rfl⟩ : ∃ (n : Fin 10000) (j : Fin 128), y = ix2 n j := ⟨y 0, y 1, eq_ix2 y⟩
  refine (Cert.Net.pay1_at (iblk m c 0 t0) (iblk m c 2 t0) n j).trans ?_
  show _ = ∑ k : Fin 128, arr0 m c (ix2 n k) * arr2 m c (ix2 k j)
  refine Finset.sum_congr rfl fun k _ => ?_
  rw [blk0_at m c t0 n k, blk2_at m c t0 k j]

/-- The kernel's hidden matrix is relu(adj · support + b1) · W2. -/
theorem kH2_eq : kH2 (F := Ideal) m c
    = Cert.Net.hidden (m ((c.tc : Thread nD τ).loc main_arg1))
        (Cert.Net.support (m ((c.tc : Thread nD τ).loc main_arg0)) (m ((c.tc : Thread nD τ).loc main_arg2)))
        (fun h => m ((c.tc : Thread nD τ).loc main_arg3) (ix1 h)) (m ((c.tc : Thread nD τ).loc main_arg4)) := by
  funext y
  obtain ⟨n, q, rfl⟩ : ∃ (n : Fin 10000) (q : Fin 64), y = ix2 n q := ⟨y 0, y 1, eq_ix2 y⟩
  have hn : n.val < 10000 := n.isLt
  have hp : n.val / 400 < 50 := by omega
  have hlt : n.val % 400 < 400 := Nat.mod_lt _ (by omega)
  refine (Cert.Net.pay2_at (iblk m c 1 (pt (n.val / 400) hp)) (kS1 m c) (iblk m c 3 t0) (iblk m c 4 t0)
    ⟨n.val % 400, hlt⟩ q).trans ?_
  show _ = ∑ h : Fin 128, max ((∑ k : Fin 10000, arr1 m c (ix2 n k) *
      Cert.Net.support (arr0 m c) (arr2 m c) (ix2 k h)) + arr3 m c (ix1 h)) Cert.Net.thr * arr4 m c (ix2 h q)
  refine Finset.sum_congr rfl fun h _ => ?_
  rw [blk3_at m c t0 h, blk4_at m c t0 h q, kS1_eq]
  congr 3
  refine Finset.sum_congr rfl fun k _ => ?_
  rw [adj_row_at m c n k (n.val / 400) hp (by omega) hlt]

/-- The kernel's output is the two-layer graph convolution of the launched arrays. -/
theorem kOUT_eq (m : (ℓ : Loc nD τ sig) → Buf (Elt Ideal) ℓ) (c : Dev nD) :
    Cert.KernelIdeal.Hand.kOUT (F := Ideal) m c
      = Cert.Net.gcn (m ((c.tc : Thread nD τ).loc main_arg0)) (m ((c.tc : Thread nD τ).loc main_arg1))
          (m ((c.tc : Thread nD τ).loc main_arg2)) (fun h => m ((c.tc : Thread nD τ).loc main_arg3) (ValueIdx.ix1 h))
          (m ((c.tc : Thread nD τ).loc main_arg4)) (fun q => m ((c.tc : Thread nD τ).loc main_arg5) (ValueIdx.ix1 q)) := by
  funext y
  obtain ⟨n, q, rfl⟩ : ∃ (n : Fin 10000) (q : Fin 64), y = ix2 n q := ⟨y 0, y 1, eq_ix2 y⟩
  have hn : n.val < 10000 := n.isLt
  have hp : 25 + n.val / 400 < 50 := by omega
  have hlt : n.val % 400 < 400 := Nat.mod_lt _ (by omega)
  refine (Cert.Net.pay3_at (iblk m c 1 (pt (25 + n.val / 400) hp)) (kH2 m c) (iblk m c 5 t0) ⟨n.val % 400, hlt⟩ q).trans ?_
  show _ = max ((∑ k : Fin 10000, arr1 m c (ix2 n k) *
      Cert.Net.hidden (arr1 m c) (Cert.Net.support (arr0 m c) (arr2 m c)) (fun h => arr3 m c (ix1 h)) (arr4 m c) (ix2 k q))
      + arr5 m c (ix1 q)) Cert.Net.thr
  rw [blk5_at m c t0 q, kH2_eq]
  congr 2
  refine Finset.sum_congr rfl fun k _ => ?_
  rw [adj_row_at m c n k (25 + n.val / 400) hp (by omega) hlt]

end Cert.KernelIdeal.KValue

end
-- ==== Proof.HandKernel.Pure.lean ====
/- Rows of a matrix overwritten by a block, and what a whole buffer reads after one store: the two readings the
   kernel body's stores need. The body stores either a whole buffer or a band of `r` consecutive rows starting at
   row `o`; a band store leaves every other row as it was. -/
import Idealize.ShloMosaic.Lib.WritesUnit
import Idealize.ShloMosaic.Lib.ValueIdx
import Idealize.ShloMosaic.Lib.Pipeline.Frame
import Idealize.ShloMosaic.Lib.Pipeline.FrameBody
import Idealize.ShloMosaic.Lib.Pipeline.Value

noncomputable section

namespace Cert.Kernel.Hand

open Idealize.ShloMosaic Idealize.ShloMosaic.ValueIdx

/-- The matrix `d` with rows `o, …, o + r - 1` replaced by the rows of `w`. -/
def putRows {α : Type} {n b : ℕ} (r o : ℕ) (d : (⟨2, ![n, b]⟩ : Shape).Idx → α) (w : (⟨2, ![r, b]⟩ : Shape).Idx → α) :
    (⟨2, ![n, b]⟩ : Shape).Idx → α :=
  fun y => if h : o ≤ (y 0).val ∧ (y 0).val < o + r then w (ix2 ⟨(y 0).val - o, by omega⟩ (y 1)) else d y

/-- Inside the band the new rows are read. -/
theorem putRows_of_mem {α : Type} {n b : ℕ} (r o : ℕ) (d : (⟨2, ![n, b]⟩ : Shape).Idx → α) (w : (⟨2, ![r, b]⟩ : Shape).Idx → α)
    (y : (⟨2, ![n, b]⟩ : Shape).Idx) (h : o ≤ (y 0).val ∧ (y 0).val < o + r) :
    putRows r o d w y = w (ix2 ⟨(y 0).val - o, by omega⟩ (y 1)) := dif_pos h

/-- Outside the band the old rows are read. -/
theorem putRows_of_not_mem {α : Type} {n b : ℕ} (r o : ℕ) (d : (⟨2, ![n, b]⟩ : Shape).Idx → α) (w : (⟨2, ![r, b]⟩ : Shape).Idx → α)
    (y : (⟨2, ![n, b]⟩ : Shape).Idx) (h : ¬(o ≤ (y 0).val ∧ (y 0).val < o + r)) :
    putRows r o d w y = d y := dif_neg h

variable {sig : RefSig} {κ : Kind} {sp : Space} {e : EltTy} {Val : EltTy → Type}

/-- A whole buffer holding `d`, after one store of the band of rows `[o, o + r)`, reads `d` with those rows replaced. -/
theorem read_put_rows {n b r : ℕ} (m : Memref sig κ sp (⟨2, ![n, b]⟩ : Shape) e) (hm : m.IsWhole)
    (d : (⟨2, ![n, b]⟩ : Shape).Idx → Val e) (off : Fin 2 → ℕ)
    (inb : ∀ a : Fin 2, off a + (![r, b] : Fin 2 → ℕ) a ≤ (![n, b] : Fin 2 → ℕ) a)
    (w : (Rect.unit (s := ⟨2, ![n, b]⟩) off ![r, b] inb).shape.Idx → Val e) (o : ℕ) (hoff : off = ![o, 0]) :
    m.view.read Val (m.view.writes Val (hm.unread d) [⟨Rect.unit (s := ⟨2, ![n, b]⟩) off ![r, b] inb, w⟩]) = putRows r o d w := by
  funext y
  by_cases h : o ≤ (y (0 : Fin 2)).val ∧ (y (0 : Fin 2)).val < o + r
  · rw [putRows_of_mem r o d w y h]
    exact View.read_writes_cons_rows_of_mem m.view (hm.unread d) inb w [] y
      (ix2 ⟨(y (0 : Fin 2)).val - o, by omega⟩ (y 1)) hoff (by show _ = o + ((y (0 : Fin 2)).val - o); omega) rfl
  · rw [putRows_of_not_mem r o d w y h,
      View.read_writes_cons_rows_of_not_mem m.view (hm.unread d) inb w [] y hoff (show (![r, b] : Fin 2 → ℕ) (0 : Fin 2) = r from rfl) (by omega),
      View.writes_nil, hm.read_unread]

/-- A whole buffer, after one store of all of it, reads what was stored. -/
theorem read_put_whole {S : Shape} (m : Memref sig κ sp S e) (f : m.view.ty.Contents Val) (off : Fin S.rank → ℕ)
    (hz : off = fun _ => 0) (inb : ∀ a, off a + S.size a ≤ S.size a) (w : S.Idx → Val e) :
    m.view.read Val (m.view.writes Val f [⟨Rect.unit off S.size inb, w⟩]) = w := by
  funext y
  exact View.read_writes_cons_unit_of_mem m.view f inb w [] y y hz (fun a => (Nat.zero_add _).symm)

/-- A load of all of a whole buffer reads its contents. -/
theorem readAt_whole {S : Shape} (m : Memref sig κ sp S e) (f : m.view.ty.Contents Val) (off : Fin S.rank → ℕ)
    (hz : off = fun _ => 0) (inb : ∀ a, off a + S.size a ≤ S.size a) :
    m.view.readAt Val (Rect.unit off S.size inb).toLoadRect f = m.view.read Val f := by
  rw [View.readAt_eq_ld, View.ld_unit_zero hz]

end Cert.Kernel.Hand

end
-- ==== Proof.HandKernel.Sched.lean ====
/- The kernel's control over its 2 × 25 grid, in closed form. Point t (row-major) is in the first phase when t < 25 and
   in the second when 25 ≤ t; the prologue runs at point 0 only; in either phase the band of rows the point stores starts
   at row 400 · (t mod 25). -/
import proofs.«133060_g3075196584310_cont_9to1_627_5_alg».proof.Proof.Gen.Kernel.Points
import proofs.«133060_g3075196584310_cont_9to1_627_5_alg».proof.Proof.Gen.Kernel.Launch
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue's condition (first phase and first block), as the body computes it. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first phase's condition. -/
abbrev cond1 (i : grid0.Coords) : Prop := k0_cond2 i = 1#1
/-- The second phase's condition. -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 25 :=
  (by decide +kernel : ∀ t : Fin grid0.N, cond1 (grid0.coords t) ↔ t.val < 25)
theorem hcond2 : ∀ t : Fin cfg0.N, cond2 (grid0.coords t) ↔ 25 ≤ t.val :=
  (by decide +kernel : ∀ t : Fin grid0.N, cond2 (grid0.coords t) ↔ 25 ≤ t.val)

/-- The first phase's band starts at row 400 · (t mod 25). -/
theorem off1_eq : ∀ t : Fin cfg0.N, k0_off1 (grid0.coords t) = ![400 * (t.val % 25), 0] :=
  (by decide +kernel : ∀ t : Fin grid0.N, k0_off1 (grid0.coords t) = ![400 * (t.val % 25), 0])
/-- So does the second phase's. -/
theorem off2_eq : ∀ t : Fin cfg0.N, k0_off2 (grid0.coords t) = ![400 * (t.val % 25), 0] :=
  (by decide +kernel : ∀ t : Fin grid0.N, k0_off2 (grid0.coords t) = ![400 * (t.val % 25), 0])

/-- The adjacency's stripe at point t is block t mod 25 of its rows. -/
theorem index1_eq : ∀ t : Fin cfg0.N, (cfg0.win 1).index t = ![t.val % 25, 0] :=
  (by decide +kernel : ∀ t : Fin grid0.N, win0_1.index t = ![t.val % 25, 0])
/-- Every other window's block is the whole array at every point. -/
theorem index0_eq : ∀ t : Fin cfg0.N, (cfg0.win 0).index t = ![0, 0] :=
  (by decide +kernel : ∀ t : Fin grid0.N, win0_0.index t = ![0, 0])
theorem index2_eq : ∀ t : Fin cfg0.N, (cfg0.win 2).index t = ![0, 0] :=
  (by decide +kernel : ∀ t : Fin grid0.N, win0_2.index t = ![0, 0])
theorem index3_eq : ∀ t : Fin cfg0.N, (cfg0.win 3).index t = ![0, 0] :=
  (by decide +kernel : ∀ t : Fin grid0.N, win0_3.index t = ![0, 0])
theorem index4_eq : ∀ t : Fin cfg0.N, (cfg0.win 4).index t = ![0, 0] :=
  (by decide +kernel : ∀ t : Fin grid0.N, win0_4.index t = ![0, 0])
theorem index5_eq : ∀ t : Fin cfg0.N, (cfg0.win 5).index t = ![0, 0] :=
  (by decide +kernel : ∀ t : Fin grid0.N, win0_5.index t = ![0, 0])
theorem index6_eq : ∀ t : Fin cfg0.N, (cfg0.win 6).index t = ![0, 0] :=
  (by decide +kernel : ∀ t : Fin grid0.N, win0_6.index t = ![0, 0])

/-- The output is not fetched. -/
theorem fetch6 : ∀ t : Fin cfg0.N, (cfg0.win 6).fetch t = false :=
  (by decide +kernel : ∀ t : Fin grid0.N, win0_6.fetch t = false)

end Cert.Kernel.Hand

end
-- ==== Proof.HandKernel.Blocks.lean ====
/- What the kernel computes, as functions of the blocks the pipeline hands its body: the support (one product, at the
   first point), the hidden matrix (row band j at point j of the first phase) and the output (row band j at point 25 + j of
   the second phase). Row n lies in band n / 400 at position n mod 400. -/
import proofs.«133060_g3075196584310_cont_9to1_627_5_alg».proof.Proof.Gen.Kernel.Frame
import proofs.«133060_g3075196584310_cont_9to1_627_5_alg».proof.Proof.Gen.Kernel.Skeleton
import proofs.«133060_g3075196584310_cont_9to1_627_5_alg».proof.Proof.HandKernel.Pure
import proofs.«133060_g3075196584310_cont_9to1_627_5_alg».proof.Proof.HandKernel.Sched
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Grid point n. -/
def pt (n : ℕ) (h : n < 50) : Fin cfg0.N := ⟨n, lt_of_lt_of_eq h N_0.symm⟩

@[simp] theorem pt_val (n : ℕ) (h : n < 50) : (pt n h).val = n := rfl

/-- The first point. -/
abbrev t0 : Fin cfg0.N := pt 0 (by omega)

/-- A row's band is below 25. -/
theorem band_lt (y : S10000x64.Idx) : (y 0).val / 400 < 25 := by
  have : (y 0).val < 10000 := (y 0).isLt
  omega

/-- The position of an entry of a 10000-row matrix inside its band of 400 rows. -/
def inBand (y : S10000x64.Idx) : S400x64.Idx := ValueIdx.ix2 ⟨(y 0).val % 400, Nat.mod_lt _ (by omega)⟩ (y 1)

/-- The support x · W1, as the prologue computes it from the blocks of the features and the first weight. -/
def kS1 (c : Dev nD) : Vec F S10000x128 .f32 := k0_pay1 (iblk m c 0 t0) (iblk m c 2 t0)

/-- The hidden matrix: each band of rows as the first phase computes it at the band's point. -/
def kH2 (c : Dev nD) : Vec F S10000x64 .f32 := fun y =>
  k0_pay2 (iblk m c 1 (pt ((y 0).val / 400) (by have := band_lt y; omega))) (kS1 m c) (iblk m c 3 t0) (iblk m c 4 t0) (inBand y)

/-- The output: each band of rows as the second phase computes it at the band's point. -/
def kOUT (c : Dev nD) : Vec F S10000x64 .f32 := fun y =>
  k0_pay3 (iblk m c 1 (pt (25 + (y 0).val / 400) (by have := band_lt y; omega))) (kH2 m c) (iblk m c 5 t0) (inBand y)

end Cert.Kernel.Hand

end
-- ==== Proof.HandKernel.Data.lean ====
/- The proof data of the kernel's one pipeline, stated relationally: each input's staging buffer is left as found; the
   output's staging buffer is left as found in the first phase and with one band of rows replaced in the second; between
   points the support scratch holds the support and the hidden scratch agrees with the hidden matrix on the bands already
   stored. -/
import proofs.«133060_g3075196584310_cont_9to1_627_5_alg».proof.Proof.Gen.Kernel.Frame
import proofs.«133060_g3075196584310_cont_9to1_627_5_alg».proof.Proof.Gen.Kernel.Skeleton
import proofs.«133060_g3075196584310_cont_9to1_627_5_alg».proof.Proof.HandKernel.Pure
import proofs.«133060_g3075196584310_cont_9to1_627_5_alg».proof.Proof.HandKernel.Sched
import proofs.«133060_g3075196584310_cont_9to1_627_5_alg».proof.Proof.HandKernel.Blocks
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The two scratch buffers the body carries between points. -/
abbrev scM0 : Memref sig .tc .vmem S10000x128 .f32 := Memref.whole cc0_scratch0
abbrev scM1 : Memref sig .tc .vmem S10000x64 .f32 := Memref.whole cc0_scratch1

/-- What the region hands the body besides the windows: both scratch buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- A matrix agrees with the hidden matrix on its first n bands of 400 rows. -/
def AgreeH2 (c : Dev nD) (n : ℕ) (d : Vec F S10000x64 .f32) : Prop :=
  ∀ y : S10000x64.Idx, (y 0).val < 400 * n → d y = kH2 m c y

/-- The invariant before point n: before the first point anything; afterwards the support in its scratch and the hidden
    scratch agreeing with the hidden matrix on the bands stored so far (all 25 from the second phase on). -/
def PhiS (c : Dev nD) (n : ℕ) : sProp 𝕄 :=
  if n = 0 then Pipeline.ΦA spec0 c
  else iprop(iprop(owns (c : Thread nD τ) scM0 fullShare (kS1 m c) ∗ (∃ d, ⌜AgreeH2 m c (min n 25) d⌝ ∗ owns (c : Thread nD τ) scM1 fullShare d)) ∗ (∃ r, prngReg c r))

/-- What a point leaves in the output's staging buffer, given what it found: in the second phase its band replaced by
    the second layer's payload of the stripe, the hidden matrix and the bias row; in the first phase what it found. -/
def out6 (c : Dev nD) (t : Fin cfg0.N) (Y : Vec F S10000x64 .f32) : Vec F S10000x64 .f32 :=
  if 25 ≤ t.val then putRows 400 (400 * (t.val % 25)) Y (k0_pay3 (iblk m c 1 t) (kH2 m c) (iblk m c 5 t0)) else Y

/-- The relational proof data on core c. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = out6 m c t Y
  Φ t := PhiS m c t.val
  q _ := fullShare
  owed _ := 0

theorem PhiS_zero (c : Dev nD) : PhiS m c 0 = Pipeline.ΦA spec0 c := if_pos rfl

theorem PhiS_pos (c : Dev nD) (n : ℕ) (h : n ≠ 0) :
    PhiS m c n = iprop(iprop(owns (c : Thread nD τ) scM0 fullShare (kS1 m c) ∗ (∃ d, ⌜AgreeH2 m c (min n 25) d⌝ ∗ owns (c : Thread nD τ) scM1 fullShare d)) ∗ (∃ r, prngReg c r)) := if_neg h

theorem A_eq (c : Dev nD) (w : Fin cfg0.W) : (rdat m c).A w = V m c (Pipeline.arrRef spec0 w) := rfl

/-- An input window fetched at the first point only and never written back holds, at every point, the block fetched
    then, if the body leaves it as found. -/
theorem finds_fixed (c : Dev nD) (w : Fin cfg0.W) (B : (cfg0.win w).block.Idx → Elt F (cfg0.win w).elt)
    (hfetch : ∀ t : Fin cfg0.N, (cfg0.win w).fetch t = true ↔ t.val % 50 = 0)
    (hflush : ∀ t : Fin cfg0.N, (cfg0.win w).flush t = false)
    (hafter : ∀ t Y X, (rdat m c).after w t Y X → X = Y)
    (hB : ∀ (t : Fin cfg0.N) d, t.val = 0 → (rdat m c).fetched w t d = B) :
    ∀ (n : ℕ) (h : n < cfg0.N) X, (rdat m c).Finds w ⟨n, h⟩ X → X = B
  | 0, h, X, hX => by
    obtain ⟨d, rfl⟩ := ((rdat m c).finds_of_fetch ((hfetch ⟨0, h⟩).mpr rfl) X).mp hX
    exact hB _ d rfl
  | n + 1, h, X, hX => by
    have hN : n + 1 < 50 := lt_of_lt_of_eq h N_0
    have hf : (cfg0.win w).fetch ⟨n + 1, h⟩ = false := by
      cases hh : (cfg0.win w).fetch ⟨n + 1, h⟩ with
      | false => rfl
      | true => exact absurd ((hfetch _).mp hh) (by show ¬ (n + 1) % 50 = 0; omega)
    rcases ((rdat m c).finds_of_pos hf (Nat.succ_ne_zero n) X).mp hX with hfl | hL
    · rw [hflush] at hfl; exact absurd hfl Bool.false_ne_true
    · obtain ⟨Y, hY, hYX⟩ := hL
      rw [hafter _ _ _ hYX]
      exact finds_fixed c w B hfetch hflush hafter hB n _ Y hY

/-- No input is ever written back. -/
theorem flush_in0 : ∀ t : Fin cfg0.N, (cfg0.win 0).flush t = false := (by decide +kernel : ∀ t : Fin grid0.N, win0_0.flush t = false)
theorem flush_in2 : ∀ t : Fin cfg0.N, (cfg0.win 2).flush t = false := (by decide +kernel : ∀ t : Fin grid0.N, win0_2.flush t = false)
theorem flush_in3 : ∀ t : Fin cfg0.N, (cfg0.win 3).flush t = false := (by decide +kernel : ∀ t : Fin grid0.N, win0_3.flush t = false)
theorem flush_in4 : ∀ t : Fin cfg0.N, (cfg0.win 4).flush t = false := (by decide +kernel : ∀ t : Fin grid0.N, win0_4.flush t = false)
theorem flush_in5 : ∀ t : Fin cfg0.N, (cfg0.win 5).flush t = false := (by decide +kernel : ∀ t : Fin grid0.N, win0_5.flush t = false)

/-- A fetch fills an uncut window's buffer with the array's block. -/
theorem fetched_eq0 (c : Dev nD) (t : Fin cfg0.N) (d) : (rdat m c).fetched 0 t d = iblk m c 0 t := by
  unfold Pipeline.RDat.fetched Pipeline.RDat.blockOf iblk; rfl
theorem fetched_eq1 (c : Dev nD) (t : Fin cfg0.N) (d) : (rdat m c).fetched 1 t d = iblk m c 1 t := by
  unfold Pipeline.RDat.fetched Pipeline.RDat.blockOf iblk; rfl
theorem fetched_eq2 (c : Dev nD) (t : Fin cfg0.N) (d) : (rdat m c).fetched 2 t d = iblk m c 2 t := by
  unfold Pipeline.RDat.fetched Pipeline.RDat.blockOf iblk; rfl
theorem fetched_eq3 (c : Dev nD) (t : Fin cfg0.N) (d) : (rdat m c).fetched 3 t d = iblk m c 3 t := by
  unfold Pipeline.RDat.fetched Pipeline.RDat.blockOf iblk; rfl
theorem fetched_eq4 (c : Dev nD) (t : Fin cfg0.N) (d) : (rdat m c).fetched 4 t d = iblk m c 4 t := by
  unfold Pipeline.RDat.fetched Pipeline.RDat.blockOf iblk; rfl
theorem fetched_eq5 (c : Dev nD) (t : Fin cfg0.N) (d) : (rdat m c).fetched 5 t d = iblk m c 5 t := by
  unfold Pipeline.RDat.fetched Pipeline.RDat.blockOf iblk; rfl

theorem finds0 (c : Dev nD) (t : Fin cfg0.N) (X) (h : (rdat m c).Finds 0 t X) : X = iblk m c 0 t0 :=
  finds_fixed m c 0 (iblk m c 0 t0) fetch0_0 flush_in0 (fun _ _ _ h => h)
    (fun t d ht => by have e : t = t0 := Fin.ext ht; subst e; exact fetched_eq0 m c _ d) t.val t.isLt X h
theorem finds2 (c : Dev nD) (t : Fin cfg0.N) (X) (h : (rdat m c).Finds 2 t X) : X = iblk m c 2 t0 :=
  finds_fixed m c 2 (iblk m c 2 t0) fetch0_2 flush_in2 (fun _ _ _ h => h)
    (fun t d ht => by have e : t = t0 := Fin.ext ht; subst e; exact fetched_eq2 m c _ d) t.val t.isLt X h
theorem finds3 (c : Dev nD) (t : Fin cfg0.N) (X) (h : (rdat m c).Finds 3 t X) : X = iblk m c 3 t0 :=
  finds_fixed m c 3 (iblk m c 3 t0) fetch0_3 flush_in3 (fun _ _ _ h => h)
    (fun t d ht => by have e : t = t0 := Fin.ext ht; subst e; exact fetched_eq3 m c _ d) t.val t.isLt X h
theorem finds4 (c : Dev nD) (t : Fin cfg0.N) (X) (h : (rdat m c).Finds 4 t X) : X = iblk m c 4 t0 :=
  finds_fixed m c 4 (iblk m c 4 t0) fetch0_4 flush_in4 (fun _ _ _ h => h)
    (fun t d ht => by have e : t = t0 := Fin.ext ht; subst e; exact fetched_eq4 m c _ d) t.val t.isLt X h
theorem finds5 (c : Dev nD) (t : Fin cfg0.N) (X) (h : (rdat m c).Finds 5 t X) : X = iblk m c 5 t0 :=
  finds_fixed m c 5 (iblk m c 5 t0) fetch0_5 flush_in5 (fun _ _ _ h => h)
    (fun t d ht => by have e : t = t0 := Fin.ext ht; subst e; exact fetched_eq5 m c _ d) t.val t.isLt X h

/-- What each window's relation says. -/
theorem after0 (c : Dev nD) (t : Fin cfg0.N) (Y X) : (rdat m c).after 0 t Y X = (X = Y) := by dsimp only [rdat]
theorem after1 (c : Dev nD) (t : Fin cfg0.N) (Y X) : (rdat m c).after 1 t Y X = (X = Y) := by dsimp only [rdat]
theorem after2 (c : Dev nD) (t : Fin cfg0.N) (Y X) : (rdat m c).after 2 t Y X = (X = Y) := by dsimp only [rdat]
theorem after3 (c : Dev nD) (t : Fin cfg0.N) (Y X) : (rdat m c).after 3 t Y X = (X = Y) := by dsimp only [rdat]
theorem after4 (c : Dev nD) (t : Fin cfg0.N) (Y X) : (rdat m c).after 4 t Y X = (X = Y) := by dsimp only [rdat]
theorem after5 (c : Dev nD) (t : Fin cfg0.N) (Y X) : (rdat m c).after 5 t Y X = (X = Y) := by dsimp only [rdat]
theorem after6 (c : Dev nD) (t : Fin cfg0.N) (Y X) : (rdat m c).after 6 t Y X = (X = out6 m c t Y) := by dsimp only [rdat]

/-- The adjacency's stripe is fetched at every point. -/
theorem finds1 (c : Dev nD) (t : Fin cfg0.N) (X) (h : (rdat m c).Finds 1 t X) : X = iblk m c 1 t := by
  obtain ⟨d, rfl⟩ := ((rdat m c).finds_of_fetch (fetch0_1 t) X).mp h
  exact fetched_eq1 m c t d

end Cert.Kernel.Hand

end
-- ==== Proof.HandKernel.RunA.lean ====
/- The kernel body at the first point: the prologue stores the support into its scratch, then the first phase reads
   it back and stores the first band of rows of the hidden scratch. -/
import proofs.«133060_g3075196584310_cont_9to1_627_5_alg».proof.Proof.Gen.Kernel.Frame
import proofs.«133060_g3075196584310_cont_9to1_627_5_alg».proof.Proof.Gen.Kernel.Skeleton
import proofs.«133060_g3075196584310_cont_9to1_627_5_alg».proof.Proof.HandKernel.Pure
import proofs.«133060_g3075196584310_cont_9to1_627_5_alg».proof.Proof.HandKernel.Sched
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From whole buffers at named contents the body runs and leaves the support scratch at the product of the
    features and the first weight, and the hidden scratch with its band at row `o` replaced by the layer's payload. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S10000x128 .f32) (harg9 : arg9.IsWhole) (arg10 : Memref sig .tc .vmem S10000x64 .f32) (harg10 : arg10.IsWhole) (hc0 : cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (x6 : Vec F S10000x64 .f32) (xs0 : Vec F S10000x128 .f32) (xs1 : Vec F S10000x64 .f32) (o : ℕ) (hoff : k0_off1 i = ![o, 0])
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (x6) ∗ owns (c : Thread nD τ) arg9 fullShare (k0_pay1 x0 x2) ∗ owns (c : Thread nD τ) arg10 fullShare (putRows 400 o xs1 (k0_pay2 x1 (k0_pay1 x0 x2) x3 x4))) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    have hz : (![0, 0] : Fin 2 → ℕ) = fun _ => 0 := funext fun a => by fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; swap; · iexact HS0
      ipureintro
      sl_unfold_words
      refine (read_put_whole arg9 _ _ hz _ _).trans ?_
      rw [readAt_whole arg2 _ _ hz, readAt_whole arg4 _ _ hz, harg2.read_unread, harg4.read_unread]
    iexists _; isplitr; swap; · iexact HS1
    ipureintro
    refine (read_put_rows arg10 harg10 xs1 _ _ _ o hoff).trans ?_
    sl_unfold_words
    rw [View.readCov_unit_zero arg9.view hz, readAt_whole arg2 _ _ hz, readAt_whole arg4 _ _ hz,
      readAt_whole arg3 _ _ hz, readAt_whole arg5 _ _ hz, readAt_whole arg6 _ _ hz,
      harg2.read_unread, harg4.read_unread, harg3.read_unread, harg5.read_unread, harg6.read_unread]

end Cert.Kernel.Hand

end
-- ==== Proof.HandKernel.RunB.lean ====
/- The kernel body at a point of the first phase other than the first: the support scratch is read, one band of rows
   of the hidden scratch is stored, everything else is left as found. -/
import proofs.«133060_g3075196584310_cont_9to1_627_5_alg».proof.Proof.Gen.Kernel.Frame
import proofs.«133060_g3075196584310_cont_9to1_627_5_alg».proof.Proof.Gen.Kernel.Skeleton
import proofs.«133060_g3075196584310_cont_9to1_627_5_alg».proof.Proof.HandKernel.Pure
import proofs.«133060_g3075196584310_cont_9to1_627_5_alg».proof.Proof.HandKernel.Sched
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From whole buffers at named contents the body runs and leaves the hidden scratch with its band at row `o`
    replaced by the layer's payload of the stripe, the support, the bias row and the second weight. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (x6 : Vec F S10000x64 .f32) (xs0 : Vec F S10000x128 .f32) (xs1 : Vec F S10000x64 .f32) (o : ℕ) (hoff : k0_off1 i = ![o, 0])
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (x6) ∗ owns (c : Thread nD τ) arg9 fullShare (xs0) ∗ owns (c : Thread nD τ) arg10 fullShare (putRows 400 o xs1 (k0_pay2 x1 xs0 x3 x4))) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    have hz : (![0, 0] : Fin 2 → ℕ) = fun _ => 0 := funext fun a => by fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; swap; · iexact HS1
    ipureintro
    refine (read_put_rows arg10 harg10 xs1 _ _ _ o hoff).trans ?_
    rw [readAt_whole arg3 _ _ hz, readAt_whole arg9 _ _ hz, readAt_whole arg5 _ _ hz, readAt_whole arg6 _ _ hz,
      harg3.read_unread, harg9.read_unread, harg5.read_unread, harg6.read_unread]

end Cert.Kernel.Hand

end
-- ==== Proof.HandKernel.RunC.lean ====
/- The kernel body at a point of the second phase: the whole hidden scratch is read and one band of rows of the
   output's staging buffer is stored; both scratch buffers are left as found. -/
import proofs.«133060_g3075196584310_cont_9to1_627_5_alg».proof.Proof.Gen.Kernel.Frame
import proofs.«133060_g3075196584310_cont_9to1_627_5_alg».proof.Proof.Gen.Kernel.Skeleton
import proofs.«133060_g3075196584310_cont_9to1_627_5_alg».proof.Proof.HandKernel.Pure
import proofs.«133060_g3075196584310_cont_9to1_627_5_alg».proof.Proof.HandKernel.Sched
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From whole buffers at named contents the body runs and leaves the output's staging buffer with its band at row `o`
    replaced by the second layer's payload of the stripe, the hidden scratch's contents and the bias row. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : ¬cond1 i) (hc2 : cond2 i)
    (x0 : Vec F S10000x128 .f32) (x1 : Vec F S400x10000 .f32) (x2 : Vec F S128x128 .f32) (x3 : Vec F S1x128 .f32) (x4 : Vec F S128x64 .f32) (x5 : Vec F S1x64 .f32) (x6 : Vec F S10000x64 .f32) (xs0 : Vec F S10000x128 .f32) (xs1 : Vec F S10000x64 .f32) (o : ℕ) (hoff : k0_off2 i = ![o, 0])
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows 400 o x6 (k0_pay3 x1 xs1 x5)) ∗ owns (c : Thread nD τ) arg9 fullShare (xs0) ∗ owns (c : Thread nD τ) arg10 fullShare (xs1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    have hz : (![0, 0] : Fin 2 → ℕ) = fun _ => 0 := funext fun a => by fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_put_rows arg8 harg8 x6 _ _ _ o hoff).trans ?_
      rw [readAt_whole arg3 _ _ hz, readAt_whole arg10 _ _ hz, readAt_whole arg7 _ _ hz,
        harg3.read_unread, harg10.read_unread, harg7.read_unread]
    isplitl [HS0]
    · iexists _; isplitr; · ipureintro; exact harg9.read_unread _
      iexact HS0
    iexists _; isplitr; · ipureintro; exact harg10.read_unread _
    iexact HS1

end Cert.Kernel.Hand

end
-- ==== Proof.HandKernel.Body.lean ====
/- The body obligation: at every point the kernel body, run from the invariant and the windows' buffers at what they may
   hold, re-establishes the invariant and leaves each buffer in the relation the proof data states. Three cases by the
   point: the first point (prologue and first band), the rest of the first phase (one more band of the hidden matrix),
   the second phase (one band of the output). -/
import proofs.«133060_g3075196584310_cont_9to1_627_5_alg».proof.Proof.Gen.Kernel.Frame
import proofs.«133060_g3075196584310_cont_9to1_627_5_alg».proof.Proof.Gen.Kernel.Skeleton
import proofs.«133060_g3075196584310_cont_9to1_627_5_alg».proof.Proof.HandKernel.Pure
import proofs.«133060_g3075196584310_cont_9to1_627_5_alg».proof.Proof.HandKernel.Sched
import proofs.«133060_g3075196584310_cont_9to1_627_5_alg».proof.Proof.HandKernel.Blocks
import proofs.«133060_g3075196584310_cont_9to1_627_5_alg».proof.Proof.HandKernel.Data
import proofs.«133060_g3075196584310_cont_9to1_627_5_alg».proof.Proof.HandKernel.RunA
import proofs.«133060_g3075196584310_cont_9to1_627_5_alg».proof.Proof.HandKernel.RunB
import proofs.«133060_g3075196584310_cont_9to1_627_5_alg».proof.Proof.HandKernel.RunC
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- One more band: a matrix that agrees with the hidden matrix on the first t bands, its band t replaced by what the
    first phase computes at point t, agrees on the first t + 1. -/
theorem agree_step (c : Dev nD) (t : Fin cfg0.N) (ht : t.val < 25) (d : Vec F S10000x64 .f32) (hd : AgreeH2 m c t.val d) :
    AgreeH2 m c (t.val + 1)
      (putRows 400 (400 * (t.val % 25)) d (k0_pay2 (iblk m c 1 t) (kS1 m c) (iblk m c 3 t0) (iblk m c 4 t0))) := by
  intro y hy
  have hmod : t.val % 25 = t.val := Nat.mod_eq_of_lt ht
  by_cases hb : 400 * (t.val % 25) ≤ (y 0).val ∧ (y 0).val < 400 * (t.val % 25) + 400
  · rw [putRows_of_mem _ _ _ _ y hb]
    have hdiv : (y 0).val / 400 = t.val := by omega
    have e : pt ((y 0).val / 400) (by have := band_lt y; omega) = t := Fin.ext hdiv
    unfold kH2
    rw [e]
    refine congrArg _ ?_
    unfold inBand
    refine congrArg (fun r => ValueIdx.ix2 r (y 1)) (Fin.ext ?_)
    show (y 0).val - 400 * (t.val % 25) = (y 0).val % 400
    omega
  · rw [putRows_of_not_mem _ _ _ _ y hb]
    exact hd y (by omega)

theorem body_obligation (c : Dev nD) : (rdat m c).BodyObligation (defs₀ (F := F)) Variants.none () Set.univ := by
  intro t Y hY
  rw [bigSep_W0, bigSep_W0]
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have hN : t.val < 50 := lt_of_lt_of_eq t.isLt N_0
  rw [e0, e1, e2, e3, e4, e5]
  rw [show (rdat m c).owesAt () t.succ = (rdat m c).owesAt () t.castSucc from rfl,
    show (rdat m c).Φ t.castSucc = PhiS m c t.val from rfl, show (rdat m c).Φ t.succ = PhiS m c (t.val + 1) from rfl,
    PhiS_pos m c (t.val + 1) (Nat.succ_ne_zero _)]
  show _ ⊢ wp frame (wpE (defs₀ (F := F)) Variants.none c none) Set.univ (bodyAt0 t) _
  by_cases h0 : t.val = 0
  · rw [show PhiS m c t.val = Pipeline.ΦA spec0 c from by rw [h0]; exact PhiS_zero m c, PhiA_eq]
    iintro ⟨⟨⟨⟨%d0, HS0⟩, ⟨%d1, HS1⟩⟩, Hg⟩, Ho, H0, H1, H2, H3, H4, H5, H6⟩
    iapply (runA c (grid0.coords t) _ _ _ _ _ _ _ _ _ _ _ _ _ _ _ _ _ _ ((hcond0 t).mpr h0) ((hcond1 t).mpr (by omega))
      (fun h => absurd ((hcond2 t).mp h) (by omega)) (iblk m c 0 t0) (iblk m c 1 t) (iblk m c 2 t0) (iblk m c 3 t0) (iblk m c 4 t0) (iblk m c 5 t0)
      (Y 6) d0 d1 (400 * (t.val % 25)) (off1_eq t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        rw [show min (t.val + 1) 25 = t.val + 1 from by omega]
        exact agree_step m c t (by omega) d1 (fun y hy => absurd hy (by omega))
      iexact Hg
    isplitl [Ho]; · iexact Ho
    isplitl [H0]
    · iexists _; isplitr; swap; · iexact H0
      ipureintro; rw [after0]
    isplitl [H1]
    · iexists _; isplitr; swap; · iexact H1
      ipureintro; rw [after1]
    isplitl [H2]
    · iexists _; isplitr; swap; · iexact H2
      ipureintro; rw [after2]
    isplitl [H3]
    · iexists _; isplitr; swap; · iexact H3
      ipureintro; rw [after3]
    isplitl [H4]
    · iexists _; isplitr; swap; · iexact H4
      ipureintro; rw [after4]
    isplitl [H5]
    · iexists _; isplitr; swap; · iexact H5
      ipureintro; rw [after5]
    iexists _; isplitr; swap; · iexact H6
    ipureintro; rw [after6]; unfold out6; rw [if_neg (by omega)]
  · rw [PhiS_pos m c t.val h0]
    by_cases h1 : t.val < 25
    · iintro ⟨⟨⟨HS0, ⟨%d1, %hd1, HS1⟩⟩, Hg⟩, Ho, H0, H1, H2, H3, H4, H5, H6⟩
      iapply (runB c (grid0.coords t) _ _ _ _ _ _ _ _ _ _ _ _ _ _ _ _ _ _ (fun h => h0 ((hcond0 t).mp h)) ((hcond1 t).mpr h1)
        (fun h => absurd ((hcond2 t).mp h) (by omega)) (iblk m c 0 t0) (iblk m c 1 t) (iblk m c 2 t0) (iblk m c 3 t0) (iblk m c 4 t0) (iblk m c 5 t0)
        (Y 6) (kS1 m c) d1 (400 * (t.val % 25)) (off1_eq t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          rw [show min (t.val + 1) 25 = t.val + 1 from by omega]
          rw [show min t.val 25 = t.val from by omega] at hd1
          exact agree_step m c t h1 d1 hd1
        iexact Hg
      isplitl [Ho]; · iexact Ho
      isplitl [H0]
      · iexists _; isplitr; swap; · iexact H0
        ipureintro; rw [after0]
      isplitl [H1]
      · iexists _; isplitr; swap; · iexact H1
        ipureintro; rw [after1]
      isplitl [H2]
      · iexists _; isplitr; swap; · iexact H2
        ipureintro; rw [after2]
      isplitl [H3]
      · iexists _; isplitr; swap; · iexact H3
        ipureintro; rw [after3]
      isplitl [H4]
      · iexists _; isplitr; swap; · iexact H4
        ipureintro; rw [after4]
      isplitl [H5]
      · iexists _; isplitr; swap; · iexact H5
        ipureintro; rw [after5]
      iexists _; isplitr; swap; · iexact H6
      ipureintro; rw [after6]; unfold out6; rw [if_neg (by omega)]
    · iintro ⟨⟨⟨HS0, ⟨%d1, %hd1, HS1⟩⟩, Hg⟩, Ho, H0, H1, H2, H3, H4, H5, H6⟩
      rw [show min t.val 25 = 25 from by omega] at hd1
      obtain rfl : d1 = kH2 m c := funext fun y => hd1 y (by have : (y 0).val < 10000 := (y 0).isLt; omega)
      iapply (runC c (grid0.coords t) _ _ _ _ _ _ _ _ _ _ _ _ _ _ _ _ _ _ (fun h => h0 ((hcond0 t).mp h)) (fun h => h1 ((hcond1 t).mp h))
        ((hcond2 t).mpr (by omega)) (iblk m c 0 t0) (iblk m c 1 t) (iblk m c 2 t0) (iblk m c 3 t0) (iblk m c 4 t0) (iblk m c 5 t0)
        (Y 6) (kS1 m c) (kH2 m c) (400 * (t.val % 25)) (off2_eq t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          rw [show min (t.val + 1) 25 = 25 from by omega]
          exact fun y _ => rfl
        iexact Hg
      isplitl [Ho]; · iexact Ho
      isplitl [H0]
      · iexists _; isplitr; swap; · iexact H0
        ipureintro; rw [after0]
      isplitl [H1]
      · iexists _; isplitr; swap; · iexact H1
        ipureintro; rw [after1]
      isplitl [H2]
      · iexists _; isplitr; swap; · iexact H2
        ipureintro; rw [after2]
      isplitl [H3]
      · iexists _; isplitr; swap; · iexact H3
        ipureintro; rw [after3]
      isplitl [H4]
      · iexists _; isplitr; swap; · iexact H4
        ipureintro; rw [after4]
      isplitl [H5]
      · iexists _; isplitr; swap; · iexact H5
        ipureintro; rw [after5]
      iexists _; isplitr; swap; · iexact H6
      ipureintro; rw [after6]; unfold out6; rw [if_pos (by omega)]

end Cert.Kernel.Hand

end
-- ==== Proof.HandKernel.Run.lean ====
/- The run: with the body obligation at every point, every weakly fair execution of the program terminates, leaves the
   argument arrays as launched, and leaves the output array at contents the proof data allows after the last write-back. -/
import proofs.«133060_g3075196584310_cont_9to1_627_5_alg».proof.Proof.Gen.Kernel.Frame
import proofs.«133060_g3075196584310_cont_9to1_627_5_alg».proof.Proof.HandKernel.Data
import proofs.«133060_g3075196584310_cont_9to1_627_5_alg».proof.Proof.HandKernel.Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant asks nothing of the scratch. -/
theorem hin (c : Dev nD) : Pipeline.ΦA spec0 c ⊢ (rdat m c).Φ 0 := by
  rw [show (rdat m c).Φ 0 = PhiS m c 0 from rfl, PhiS_zero]

/-- After the last point the scratch contents are forgotten. -/
theorem hout (c : Dev nD) : (rdat m c).Φ (Fin.last cfg0.N) ⊢ Pipeline.ΦA spec0 c := by
  rw [show (rdat m c).Φ (Fin.last cfg0.N) = PhiS m c cfg0.N from rfl,
    PhiS_pos m c cfg0.N (by have : cfg0.N = 50 := N_0; omega), PhiA_eq]
  iintro ⟨⟨HS0, ⟨%d, %hd, HS1⟩⟩, Hg⟩
  isplitl [HS0 HS1]
  · isplitl [HS0]
    · iexists _; iexact HS0
    iexists _; iexact HS1
  iexact Hg

set_option backward.isDefEq.respectTransparency.types false in
/-- Every weakly fair execution terminates; each windowed array ends at contents the proof data allows, every other
    unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end as launched: an input window's array is never written, and the two bias vectors are no
    window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(Eq.mp (congrFun ((rdat m c).ArrAt_in 0 rfl _) _) ((h c).1 0)).trans ((A_eq m c 0).trans (V_main_arg0 m c)),
      (Eq.mp (congrFun ((rdat m c).ArrAt_in 1 rfl _) _) ((h c).1 1)).trans ((A_eq m c 1).trans (V_main_arg1 m c)),
      (Eq.mp (congrFun ((rdat m c).ArrAt_in 2 rfl _) _) ((h c).1 2)).trans ((A_eq m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((A_eq m c 4).trans (V_main_arg4 m c)),
      ((h c).2 main_arg5 (Pipeline.mem_restRefs_of main_arg5 (by decide) (by decide))).trans (V_main_arg5 m c)⟩)
    (run_main m ρ)

end Cert.Kernel.Hand

end
-- ==== Proof.HandKernelIdeal.Data.lean ====
/- The proof data of the kernel's one pipeline, stated relationally: each input's staging buffer is left as found; the
   output's staging buffer is left as found in the first phase and with one band of rows replaced in the second; between
   points the support scratch holds the support and the hidden scratch agrees with the hidden matrix on the bands already
   stored. -/
import proofs.«133060_g3075196584310_cont_9to1_627_5_alg».proof.Proof.Gen.KernelIdeal.Frame
import proofs.«133060_g3075196584310_cont_9to1_627_5_alg».proof.Proof.Gen.KernelIdeal.Skeleton
import proofs.«133060_g3075196584310_cont_9to1_627_5_alg».proof.Proof.HandKernelIdeal.Pure
import proofs.«133060_g3075196584310_cont_9to1_627_5_alg».proof.Proof.HandKernelIdeal.Sched
import proofs.«133060_g3075196584310_cont_9to1_627_5_alg».proof.Proof.HandKernelIdeal.Blocks
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The two scratch buffers the body carries between points. -/
abbrev scM0 : Memref sig .tc .vmem S10000x128 .f32 := Memref.whole cc0_scratch0
abbrev scM1 : Memref sig .tc .vmem S10000x64 .f32 := Memref.whole cc0_scratch1

/-- What the region hands the body besides the windows: both scratch buffers at some contents and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- A matrix agrees with the hidden matrix on its first n bands of 400 rows. -/
def AgreeH2 (c : Dev nD) (n : ℕ) (d : Vec F S10000x64 .f32) : Prop :=
  ∀ y : S10000x64.Idx, (y 0).val < 400 * n → d y = kH2 m c y

/-- The invariant before point n: before the first point anything; afterwards the support in its scratch and the hidden
    scratch agreeing with the hidden matrix on the bands stored so far (all 25 from the second phase on). -/
def PhiS (c : Dev nD) (n : ℕ) : sProp 𝕄 :=
  if n = 0 then Pipeline.ΦA spec0 c
  else iprop(iprop(owns (c : Thread nD τ) scM0 fullShare (kS1 m c) ∗ (∃ d, ⌜AgreeH2 m c (min n 25) d⌝ ∗ owns (c : Thread nD τ) scM1 fullShare d)) ∗ (∃ r, prngReg c r))

/-- What a point leaves in the output's staging buffer, given what it found: in the second phase its band replaced by
    the second layer's payload of the stripe, the hidden matrix and the bias row; in the first phase what it found. -/
def out6 (c : Dev nD) (t : Fin cfg0.N) (Y : Vec F S10000x64 .f32) : Vec F S10000x64 .f32 :=
  if 25 ≤ t.val then putRows 400 (400 * (t.val % 25)) Y (k0_pay3 (iblk m c 1 t) (kH2 m c) (iblk m c 5 t0)) else Y

/-- The relational proof data on core c. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = out6 m c t Y
  Φ t := PhiS m c t.val
  q _ := fullShare
  owed _ := 0

theorem PhiS_zero (c : Dev nD) : PhiS m c 0 = Pipeline.ΦA spec0 c := if_pos rfl

theorem PhiS_pos (c : Dev nD) (n : ℕ) (h : n ≠ 0) :
    PhiS m c n = iprop(iprop(owns (c : Thread nD τ) scM0 fullShare (kS1 m c) ∗ (∃ d, ⌜AgreeH2 m c (min n 25) d⌝ ∗ owns (c : Thread nD τ) scM1 fullShare d)) ∗ (∃ r, prngReg c r)) := if_neg h

theorem A_eq (c : Dev nD) (w : Fin cfg0.W) : (rdat m c).A w = V m c (Pipeline.arrRef spec0 w) := rfl

/-- An input window fetched at the first point only and never written back holds, at every point, the block fetched
    then, if the body leaves it as found. -/
theorem finds_fixed (c : Dev nD) (w : Fin cfg0.W) (B : (cfg0.win w).block.Idx → Elt F (cfg0.win w).elt)
    (hfetch : ∀ t : Fin cfg0.N, (cfg0.win w).fetch t = true ↔ t.val % 50 = 0)
    (hflush : ∀ t : Fin cfg0.N, (cfg0.win w).flush t = false)
    (hafter : ∀ t Y X, (rdat m c).after w t Y X → X = Y)
    (hB : ∀ (t : Fin cfg0.N) d, t.val = 0 → (rdat m c).fetched w t d = B) :
    ∀ (n : ℕ) (h : n < cfg0.N) X, (rdat m c).Finds w ⟨n, h⟩ X → X = B
  | 0, h, X, hX => by
    obtain ⟨d, rfl⟩ := ((rdat m c).finds_of_fetch ((hfetch ⟨0, h⟩).mpr rfl) X).mp hX
    exact hB _ d rfl
  | n + 1, h, X, hX => by
    have hN : n + 1 < 50 := lt_of_lt_of_eq h N_0
    have hf : (cfg0.win w).fetch ⟨n + 1, h⟩ = false := by
      cases hh : (cfg0.win w).fetch ⟨n + 1, h⟩ with
      | false => rfl
      | true => exact absurd ((hfetch _).mp hh) (by show ¬ (n + 1) % 50 = 0; omega)
    rcases ((rdat m c).finds_of_pos hf (Nat.succ_ne_zero n) X).mp hX with hfl | hL
    · rw [hflush] at hfl; exact absurd hfl Bool.false_ne_true
    · obtain ⟨Y, hY, hYX⟩ := hL
      rw [hafter _ _ _ hYX]
      exact finds_fixed c w B hfetch hflush hafter hB n _ Y hY

/-- No input is ever written back. -/
theorem flush_in0 : ∀ t : Fin cfg0.N, (cfg0.win 0).flush t = false := (by decide +kernel : ∀ t : Fin grid0.N, win0_0.flush t = false)
theorem flush_in2 : ∀ t : Fin cfg0.N, (cfg0.win 2).flush t = false := (by decide +kernel : ∀ t : Fin grid0.N, win0_2.flush t = false)
theorem flush_in3 : ∀ t : Fin cfg0.N, (cfg0.win 3).flush t = false := (by decide +kernel : ∀ t : Fin grid0.N, win0_3.flush t = false)
theorem flush_in4 : ∀ t : Fin cfg0.N, (cfg0.win 4).flush t = false := (by decide +kernel : ∀ t : Fin grid0.N, win0_4.flush t = false)
theorem flush_in5 : ∀ t : Fin cfg0.N, (cfg0.win 5).flush t = false := (by decide +kernel : ∀ t : Fin grid0.N, win0_5.flush t = false)

/-- A fetch fills an uncut window's buffer with the array's block. -/
theorem fetched_eq0 (c : Dev nD) (t : Fin cfg0.N) (d) : (rdat m c).fetched 0 t d = iblk m c 0 t := by
  unfold Pipeline.RDat.fetched Pipeline.RDat.blockOf iblk; rfl
theorem fetched_eq1 (c : Dev nD) (t : Fin cfg0.N) (d) : (rdat m c).fetched 1 t d = iblk m c 1 t := by
  unfold Pipeline.RDat.fetched Pipeline.RDat.blockOf iblk; rfl
theorem fetched_eq2 (c : Dev nD) (t : Fin cfg0.N) (d) : (rdat m c).fetched 2 t d = iblk m c 2 t := by
  unfold Pipeline.RDat.fetched Pipeline.RDat.blockOf iblk; rfl
theorem fetched_eq3 (c : Dev nD) (t : Fin cfg0.N) (d) : (rdat m c).fetched 3 t d = iblk m c 3 t := by
  unfold Pipeline.RDat.fetched Pipeline.RDat.blockOf iblk; rfl
theorem fetched_eq4 (c : Dev nD) (t : Fin cfg0.N) (d) : (rdat m c).fetched 4 t d = iblk m c 4 t := by
  unfold Pipeline.RDat.fetched Pipeline.RDat.blockOf iblk; rfl
theorem fetched_eq5 (c : Dev nD) (t : Fin cfg0.N) (d) : (rdat m c).fetched 5 t d = iblk m c 5 t := by
  unfold Pipeline.RDat.fetched Pipeline.RDat.blockOf iblk; rfl

theorem finds0 (c : Dev nD) (t : Fin cfg0.N) (X) (h : (rdat m c).Finds 0 t X) : X = iblk m c 0 t0 :=
  finds_fixed m c 0 (iblk m c 0 t0) fetch0_0 flush_in0 (fun _ _ _ h => h)
    (fun t d ht => by have e : t = t0 := Fin.ext ht; subst e; exact fetched_eq0 m c _ d) t.val t.isLt X h
theorem finds2 (c : Dev nD) (t : Fin cfg0.N) (X) (h : (rdat m c).Finds 2 t X) : X = iblk m c 2 t0 :=
  finds_fixed m c 2 (iblk m c 2 t0) fetch0_2 flush_in2 (fun _ _ _ h => h)
    (fun t d ht => by have e : t = t0 := Fin.ext ht; subst e; exact fetched_eq2 m c _ d) t.val t.isLt X h
theorem finds3 (c : Dev nD) (t : Fin cfg0.N) (X) (h : (rdat m c).Finds 3 t X) : X = iblk m c 3 t0 :=
  finds_fixed m c 3 (iblk m c 3 t0) fetch0_3 flush_in3 (fun _ _ _ h => h)
    (fun t d ht => by have e : t = t0 := Fin.ext ht; subst e; exact fetched_eq3 m c _ d) t.val t.isLt X h
theorem finds4 (c : Dev nD) (t : Fin cfg0.N) (X) (h : (rdat m c).Finds 4 t X) : X = iblk m c 4 t0 :=
  finds_fixed m c 4 (iblk m c 4 t0) fetch0_4 flush_in4 (fun _ _ _ h => h)
    (fun t d ht => by have e : t = t0 := Fin.ext ht; subst e; exact fetched_eq4 m c _ d) t.val t.isLt X h
theorem finds5 (c : Dev nD) (t : Fin cfg0.N) (X) (h : (rdat m c).Finds 5 t X) : X = iblk m c 5 t0 :=
  finds_fixed m c 5 (iblk m c 5 t0) fetch0_5 flush_in5 (fun _ _ _ h => h)
    (fun t d ht => by have e : t = t0 := Fin.ext ht; subst e; exact fetched_eq5 m c _ d) t.val t.isLt X h

/-- What each window's relation says. -/
theorem after0 (c : Dev nD) (t : Fin cfg0.N) (Y X) : (rdat m c).after 0 t Y X = (X = Y) := by dsimp only [rdat]
theorem after1 (c : Dev nD) (t : Fin cfg0.N) (Y X) : (rdat m c).after 1 t Y X = (X = Y) := by dsimp only [rdat]
theorem after2 (c : Dev nD) (t : Fin cfg0.N) (Y X) : (rdat m c).after 2 t Y X = (X = Y) := by dsimp only [rdat]
theorem after3 (c : Dev nD) (t : Fin cfg0.N) (Y X) : (rdat m c).after 3 t Y X = (X = Y) := by dsimp only [rdat]
theorem after4 (c : Dev nD) (t : Fin cfg0.N) (Y X) : (rdat m c).after 4 t Y X = (X = Y) := by dsimp only [rdat]
theorem after5 (c : Dev nD) (t : Fin cfg0.N) (Y X) : (rdat m c).after 5 t Y X = (X = Y) := by dsimp only [rdat]
theorem after6 (c : Dev nD) (t : Fin cfg0.N) (Y X) : (rdat m c).after 6 t Y X = (X = out6 m c t Y) := by dsimp only [rdat]

/-- The adjacency's stripe is fetched at every point. -/
theorem finds1 (c : Dev nD) (t : Fin cfg0.N) (X) (h : (rdat m c).Finds 1 t X) : X = iblk m c 1 t := by
  obtain ⟨d, rfl⟩ := ((rdat m c).finds_of_fetch (fetch0_1 t) X).mp h
  exact fetched_eq1 m c t d

end Cert.KernelIdeal.Hand

end
-- ==== Proof.HandKernelIdeal.RunA.lean ====
/- The kernel body at the first point: the prologue stores the support into its scratch, then the first phase reads
   it back and stores the first band of rows of the hidden scratch. -/
import proofs.«133060_g3075196584310_cont_9to1_627_5_alg».proof.Proof.Gen.KernelIdeal.Frame
import proofs.«133060_g3075196584310_cont_9to1_627_5_alg».proof.Proof.Gen.KernelIdeal.Skeleton
import proofs.«133060_g3075196584310_cont_9to1_627_5_alg».proof.Proof.HandKernelIdeal.Pure
import proofs.«133060_g3075196584310_cont_9to1_627_5_alg».proof.Proof.HandKernelIdeal.Sched
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From whole buffers at named contents the body runs and leaves the support scratch at the product of the
    features and the first weight, and the hidden scratch with its band at row `o` replaced by the layer's payload. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S10000x128 .f32) (harg9 : arg9.IsWhole) (arg10 : Memref sig .tc .vmem S10000x64 .f32) (harg10 : arg10.IsWhole) (hc0 : cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (x6 : Vec F S10000x64 .f32) (xs0 : Vec F S10000x128 .f32) (xs1 : Vec F S10000x64 .f32) (o : ℕ) (hoff : k0_off1 i = ![o, 0])
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (x6) ∗ owns (c : Thread nD τ) arg9 fullShare (k0_pay1 x0 x2) ∗ owns (c : Thread nD τ) arg10 fullShare (putRows 400 o xs1 (k0_pay2 x1 (k0_pay1 x0 x2) x3 x4))) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    have hz : (![0, 0] : Fin 2 → ℕ) = fun _ => 0 := funext fun a => by fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; swap; · iexact HS0
      ipureintro
      sl_unfold_words
      refine (read_put_whole arg9 _ _ hz _ _).trans ?_
      rw [readAt_whole arg2 _ _ hz, readAt_whole arg4 _ _ hz, harg2.read_unread, harg4.read_unread]
    iexists _; isplitr; swap; · iexact HS1
    ipureintro
    refine (read_put_rows arg10 harg10 xs1 _ _ _ o hoff).trans ?_
    sl_unfold_words
    rw [View.readCov_unit_zero arg9.view hz, readAt_whole arg2 _ _ hz, readAt_whole arg4 _ _ hz,
      readAt_whole arg3 _ _ hz, readAt_whole arg5 _ _ hz, readAt_whole arg6 _ _ hz,
      harg2.read_unread, harg4.read_unread, harg3.read_unread, harg5.read_unread, harg6.read_unread]

end Cert.KernelIdeal.Hand

end
-- ==== Proof.HandKernelIdeal.RunB.lean ====
/- The kernel body at a point of the first phase other than the first: the support scratch is read, one band of rows
   of the hidden scratch is stored, everything else is left as found. -/
import proofs.«133060_g3075196584310_cont_9to1_627_5_alg».proof.Proof.Gen.KernelIdeal.Frame
import proofs.«133060_g3075196584310_cont_9to1_627_5_alg».proof.Proof.Gen.KernelIdeal.Skeleton
import proofs.«133060_g3075196584310_cont_9to1_627_5_alg».proof.Proof.HandKernelIdeal.Pure
import proofs.«133060_g3075196584310_cont_9to1_627_5_alg».proof.Proof.HandKernelIdeal.Sched
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From whole buffers at named contents the body runs and leaves the hidden scratch with its band at row `o`
    replaced by the layer's payload of the stripe, the support, the bias row and the second weight. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : cond1 i) (hc2 : ¬cond2 i)
    (x0 : Vec F S10000x128 .f32) (x1 : Vec F S400x10000 .f32) (x2 : Vec F S128x128 .f32) (x3 : Vec F S1x128 .f32) (x4 : Vec F S128x64 .f32) (x5 : Vec F S1x64 .f32) (x6 : Vec F S10000x64 .f32) (xs0 : Vec F S10000x128 .f32) (xs1 : Vec F S10000x64 .f32) (o : ℕ) (hoff : k0_off1 i = ![o, 0])
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (x6) ∗ owns (c : Thread nD τ) arg9 fullShare (xs0) ∗ owns (c : Thread nD τ) arg10 fullShare (putRows 400 o xs1 (k0_pay2 x1 xs0 x3 x4))) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    have hz : (![0, 0] : Fin 2 → ℕ) = fun _ => 0 := funext fun a => by fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; swap; · iexact HS1
    ipureintro
    refine (read_put_rows arg10 harg10 xs1 _ _ _ o hoff).trans ?_
    rw [readAt_whole arg3 _ _ hz, readAt_whole arg9 _ _ hz, readAt_whole arg5 _ _ hz, readAt_whole arg6 _ _ hz,
      harg3.read_unread, harg9.read_unread, harg5.read_unread, harg6.read_unread]

end Cert.KernelIdeal.Hand

end
-- ==== Proof.HandKernelIdeal.RunC.lean ====
/- The kernel body at a point of the second phase: the whole hidden scratch is read and one band of rows of the
   output's staging buffer is stored; both scratch buffers are left as found. -/
import proofs.«133060_g3075196584310_cont_9to1_627_5_alg».proof.Proof.Gen.KernelIdeal.Frame
import proofs.«133060_g3075196584310_cont_9to1_627_5_alg».proof.Proof.Gen.KernelIdeal.Skeleton
import proofs.«133060_g3075196584310_cont_9to1_627_5_alg».proof.Proof.HandKernelIdeal.Pure
import proofs.«133060_g3075196584310_cont_9to1_627_5_alg».proof.Proof.HandKernelIdeal.Sched
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- From whole buffers at named contents the body runs and leaves the output's staging buffer with its band at row `o`
    replaced by the second layer's payload of the stripe, the hidden scratch's contents and the bias row. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S10000x128 .f32) (harg9 : arg9.IsWhole) (arg10 : Memref sig .tc .vmem S10000x64 .f32) (harg10 : arg10.IsWhole) (hc0 : ¬cond0 i) (hc1 : ¬cond1 i) (hc2 : cond2 i)
    (x0 : Vec F S10000x128 .f32) (x1 : Vec F S400x10000 .f32) (x2 : Vec F S128x128 .f32) (x3 : Vec F S1x128 .f32) (x4 : Vec F S128x64 .f32) (x5 : Vec F S1x64 .f32) (x6 : Vec F S10000x64 .f32) (xs0 : Vec F S10000x128 .f32) (xs1 : Vec F S10000x64 .f32) (o : ℕ) (hoff : k0_off2 i = ![o, 0])
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (putRows 400 o x6 (k0_pay3 x1 xs1 x5)) ∗ owns (c : Thread nD τ) arg9 fullShare (xs0) ∗ owns (c : Thread nD τ) arg10 fullShare (xs1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K := by
    have hz : (![0, 0] : Fin 2 → ℕ) = fun _ => 0 := funext fun a => by fin_cases a <;> rfl
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_put_rows arg8 harg8 x6 _ _ _ o hoff).trans ?_
      rw [readAt_whole arg3 _ _ hz, readAt_whole arg10 _ _ hz, readAt_whole arg7 _ _ hz,
        harg3.read_unread, harg10.read_unread, harg7.read_unread]
    isplitl [HS0]
    · iexists _; isplitr; · ipureintro; exact harg9.read_unread _
      iexact HS0
    iexists _; isplitr; · ipureintro; exact harg10.read_unread _
    iexact HS1

end Cert.KernelIdeal.Hand

end
-- ==== Proof.HandKernelIdeal.Body.lean ====
/- The body obligation: at every point the kernel body, run from the invariant and the windows' buffers at what they may
   hold, re-establishes the invariant and leaves each buffer in the relation the proof data states. Three cases by the
   point: the first point (prologue and first band), the rest of the first phase (one more band of the hidden matrix),
   the second phase (one band of the output). -/
import proofs.«133060_g3075196584310_cont_9to1_627_5_alg».proof.Proof.Gen.KernelIdeal.Frame
import proofs.«133060_g3075196584310_cont_9to1_627_5_alg».proof.Proof.Gen.KernelIdeal.Skeleton
import proofs.«133060_g3075196584310_cont_9to1_627_5_alg».proof.Proof.HandKernelIdeal.Pure
import proofs.«133060_g3075196584310_cont_9to1_627_5_alg».proof.Proof.HandKernelIdeal.Sched
import proofs.«133060_g3075196584310_cont_9to1_627_5_alg».proof.Proof.HandKernelIdeal.Blocks
import proofs.«133060_g3075196584310_cont_9to1_627_5_alg».proof.Proof.HandKernelIdeal.Data
import proofs.«133060_g3075196584310_cont_9to1_627_5_alg».proof.Proof.HandKernelIdeal.RunA
import proofs.«133060_g3075196584310_cont_9to1_627_5_alg».proof.Proof.HandKernelIdeal.RunB
import proofs.«133060_g3075196584310_cont_9to1_627_5_alg».proof.Proof.HandKernelIdeal.RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- One more band: a matrix that agrees with the hidden matrix on the first t bands, its band t replaced by what the
    first phase computes at point t, agrees on the first t + 1. -/
theorem agree_step (c : Dev nD) (t : Fin cfg0.N) (ht : t.val < 25) (d : Vec F S10000x64 .f32) (hd : AgreeH2 m c t.val d) :
    AgreeH2 m c (t.val + 1)
      (putRows 400 (400 * (t.val % 25)) d (k0_pay2 (iblk m c 1 t) (kS1 m c) (iblk m c 3 t0) (iblk m c 4 t0))) := by
  intro y hy
  have hmod : t.val % 25 = t.val := Nat.mod_eq_of_lt ht
  by_cases hb : 400 * (t.val % 25) ≤ (y 0).val ∧ (y 0).val < 400 * (t.val % 25) + 400
  · rw [putRows_of_mem _ _ _ _ y hb]
    have hdiv : (y 0).val / 400 = t.val := by omega
    have e : pt ((y 0).val / 400) (by have := band_lt y; omega) = t := Fin.ext hdiv
    unfold kH2
    rw [e]
    refine congrArg _ ?_
    unfold inBand
    refine congrArg (fun r => ValueIdx.ix2 r (y 1)) (Fin.ext ?_)
    show (y 0).val - 400 * (t.val % 25) = (y 0).val % 400
    omega
  · rw [putRows_of_not_mem _ _ _ _ y hb]
    exact hd y (by omega)

theorem body_obligation (c : Dev nD) : (rdat m c).BodyObligation (defs₀ (F := F)) Variants.none () Set.univ := by
  intro t Y hY
  rw [bigSep_W0, bigSep_W0]
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have hN : t.val < 50 := lt_of_lt_of_eq t.isLt N_0
  rw [e0, e1, e2, e3, e4, e5]
  rw [show (rdat m c).owesAt () t.succ = (rdat m c).owesAt () t.castSucc from rfl,
    show (rdat m c).Φ t.castSucc = PhiS m c t.val from rfl, show (rdat m c).Φ t.succ = PhiS m c (t.val + 1) from rfl,
    PhiS_pos m c (t.val + 1) (Nat.succ_ne_zero _)]
  show _ ⊢ wp frame (wpE (defs₀ (F := F)) Variants.none c none) Set.univ (bodyAt0 t) _
  by_cases h0 : t.val = 0
  · rw [show PhiS m c t.val = Pipeline.ΦA spec0 c from by rw [h0]; exact PhiS_zero m c, PhiA_eq]
    iintro ⟨⟨⟨⟨%d0, HS0⟩, ⟨%d1, HS1⟩⟩, Hg⟩, Ho, H0, H1, H2, H3, H4, H5, H6⟩
    iapply (runA c (grid0.coords t) _ _ _ _ _ _ _ _ _ _ _ _ _ _ _ _ _ _ ((hcond0 t).mpr h0) ((hcond1 t).mpr (by omega))
      (fun h => absurd ((hcond2 t).mp h) (by omega)) (iblk m c 0 t0) (iblk m c 1 t) (iblk m c 2 t0) (iblk m c 3 t0) (iblk m c 4 t0) (iblk m c 5 t0)
      (Y 6) d0 d1 (400 * (t.val % 25)) (off1_eq t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexists _; isplitr; swap; · iexact HS1
        ipureintro
        rw [show min (t.val + 1) 25 = t.val + 1 from by omega]
        exact agree_step m c t (by omega) d1 (fun y hy => absurd hy (by omega))
      iexact Hg
    isplitl [Ho]; · iexact Ho
    isplitl [H0]
    · iexists _; isplitr; swap; · iexact H0
      ipureintro; rw [after0]
    isplitl [H1]
    · iexists _; isplitr; swap; · iexact H1
      ipureintro; rw [after1]
    isplitl [H2]
    · iexists _; isplitr; swap; · iexact H2
      ipureintro; rw [after2]
    isplitl [H3]
    · iexists _; isplitr; swap; · iexact H3
      ipureintro; rw [after3]
    isplitl [H4]
    · iexists _; isplitr; swap; · iexact H4
      ipureintro; rw [after4]
    isplitl [H5]
    · iexists _; isplitr; swap; · iexact H5
      ipureintro; rw [after5]
    iexists _; isplitr; swap; · iexact H6
    ipureintro; rw [after6]; unfold out6; rw [if_neg (by omega)]
  · rw [PhiS_pos m c t.val h0]
    by_cases h1 : t.val < 25
    · iintro ⟨⟨⟨HS0, ⟨%d1, %hd1, HS1⟩⟩, Hg⟩, Ho, H0, H1, H2, H3, H4, H5, H6⟩
      iapply (runB c (grid0.coords t) _ _ _ _ _ _ _ _ _ _ _ _ _ _ _ _ _ _ (fun h => h0 ((hcond0 t).mp h)) ((hcond1 t).mpr h1)
        (fun h => absurd ((hcond2 t).mp h) (by omega)) (iblk m c 0 t0) (iblk m c 1 t) (iblk m c 2 t0) (iblk m c 3 t0) (iblk m c 4 t0) (iblk m c 5 t0)
        (Y 6) (kS1 m c) d1 (400 * (t.val % 25)) (off1_eq t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          rw [show min (t.val + 1) 25 = t.val + 1 from by omega]
          rw [show min t.val 25 = t.val from by omega] at hd1
          exact agree_step m c t h1 d1 hd1
        iexact Hg
      isplitl [Ho]; · iexact Ho
      isplitl [H0]
      · iexists _; isplitr; swap; · iexact H0
        ipureintro; rw [after0]
      isplitl [H1]
      · iexists _; isplitr; swap; · iexact H1
        ipureintro; rw [after1]
      isplitl [H2]
      · iexists _; isplitr; swap; · iexact H2
        ipureintro; rw [after2]
      isplitl [H3]
      · iexists _; isplitr; swap; · iexact H3
        ipureintro; rw [after3]
      isplitl [H4]
      · iexists _; isplitr; swap; · iexact H4
        ipureintro; rw [after4]
      isplitl [H5]
      · iexists _; isplitr; swap; · iexact H5
        ipureintro; rw [after5]
      iexists _; isplitr; swap; · iexact H6
      ipureintro; rw [after6]; unfold out6; rw [if_neg (by omega)]
    · iintro ⟨⟨⟨HS0, ⟨%d1, %hd1, HS1⟩⟩, Hg⟩, Ho, H0, H1, H2, H3, H4, H5, H6⟩
      rw [show min t.val 25 = 25 from by omega] at hd1
      obtain rfl : d1 = kH2 m c := funext fun y => hd1 y (by have : (y 0).val < 10000 := (y 0).isLt; omega)
      iapply (runC c (grid0.coords t) _ _ _ _ _ _ _ _ _ _ _ _ _ _ _ _ _ _ (fun h => h0 ((hcond0 t).mp h)) (fun h => h1 ((hcond1 t).mp h))
        ((hcond2 t).mpr (by omega)) (iblk m c 0 t0) (iblk m c 1 t) (iblk m c 2 t0) (iblk m c 3 t0) (iblk m c 4 t0) (iblk m c 5 t0)
        (Y 6) (kS1 m c) (kH2 m c) (400 * (t.val % 25)) (off2_eq t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexists _; isplitr; swap; · iexact HS1
          ipureintro
          rw [show min (t.val + 1) 25 = 25 from by omega]
          exact fun y _ => rfl
        iexact Hg
      isplitl [Ho]; · iexact Ho
      isplitl [H0]
      · iexists _; isplitr; swap; · iexact H0
        ipureintro; rw [after0]
      isplitl [H1]
      · iexists _; isplitr; swap; · iexact H1
        ipureintro; rw [after1]
      isplitl [H2]
      · iexists _; isplitr; swap; · iexact H2
        ipureintro; rw [after2]
      isplitl [H3]
      · iexists _; isplitr; swap; · iexact H3
        ipureintro; rw [after3]
      isplitl [H4]
      · iexists _; isplitr; swap; · iexact H4
        ipureintro; rw [after4]
      isplitl [H5]
      · iexists _; isplitr; swap; · iexact H5
        ipureintro; rw [after5]
      iexists _; isplitr; swap; · iexact H6
      ipureintro; rw [after6]; unfold out6; rw [if_pos (by omega)]

end Cert.KernelIdeal.Hand

end
-- ==== Proof.HandKernelIdeal.Run.lean ====
/- The run: with the body obligation at every point, every weakly fair execution of the program terminates, leaves the
   argument arrays as launched, and leaves the output array at contents the proof data allows after the last write-back. -/
import proofs.«133060_g3075196584310_cont_9to1_627_5_alg».proof.Proof.Gen.KernelIdeal.Frame
import proofs.«133060_g3075196584310_cont_9to1_627_5_alg».proof.Proof.HandKernelIdeal.Data
import proofs.«133060_g3075196584310_cont_9to1_627_5_alg».proof.Proof.HandKernelIdeal.Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point the invariant asks nothing of the scratch. -/
theorem hin (c : Dev nD) : Pipeline.ΦA spec0 c ⊢ (rdat m c).Φ 0 := by
  rw [show (rdat m c).Φ 0 = PhiS m c 0 from rfl, PhiS_zero]

/-- After the last point the scratch contents are forgotten. -/
theorem hout (c : Dev nD) : (rdat m c).Φ (Fin.last cfg0.N) ⊢ Pipeline.ΦA spec0 c := by
  rw [show (rdat m c).Φ (Fin.last cfg0.N) = PhiS m c cfg0.N from rfl,
    PhiS_pos m c cfg0.N (by have : cfg0.N = 50 := N_0; omega), PhiA_eq]
  iintro ⟨⟨HS0, ⟨%d, %hd, HS1⟩⟩, Hg⟩
  isplitl [HS0 HS1]
  · isplitl [HS0]
    · iexists _; iexact HS0
    iexists _; iexact HS1
  iexact Hg

set_option backward.isDefEq.respectTransparency.types false in
/-- Every weakly fair execution terminates; each windowed array ends at contents the proof data allows, every other
    unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end as launched: an input window's array is never written, and the two bias vectors are no
    window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(Eq.mp (congrFun ((rdat m c).ArrAt_in 0 rfl _) _) ((h c).1 0)).trans ((A_eq m c 0).trans (V_main_arg0 m c)),
      (Eq.mp (congrFun ((rdat m c).ArrAt_in 1 rfl _) _) ((h c).1 1)).trans ((A_eq m c 1).trans (V_main_arg1 m c)),
      (Eq.mp (congrFun ((rdat m c).ArrAt_in 2 rfl _) _) ((h c).1 2)).trans ((A_eq m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((A_eq m c 4).trans (V_main_arg4 m c)),
      ((h c).2 main_arg5 (Pipeline.mem_restRefs_of main_arg5 (by decide) (by decide))).trans (V_main_arg5 m c)⟩)
    (run_main m ρ)

end Cert.KernelIdeal.Hand

end
-- ==== Proof.HandKernelIdeal.Final.lean ====
/- The output array after the run. In the second phase each point replaces one band of rows of the output's staging
   buffer, so after point 25 + j the buffer agrees with the output matrix on its first j + 1 bands; the last point's
   write-back copies the whole buffer, then equal to the output matrix, over the array. -/
import proofs.«133060_g3075196584310_cont_9to1_627_5_alg».proof.Proof.Gen.KernelIdeal.Frame
import proofs.«133060_g3075196584310_cont_9to1_627_5_alg».proof.Proof.HandKernelIdeal.Data
import proofs.«133060_g3075196584310_cont_9to1_627_5_alg».proof.Proof.HandKernelIdeal.Body
import proofs.«133060_g3075196584310_cont_9to1_627_5_alg».proof.Proof.HandKernelIdeal.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A matrix agrees with the output matrix on its first n bands of 400 rows. -/
def AgreeOut (c : Dev nD) (n : ℕ) (d : Vec F S10000x64 .f32) : Prop :=
  ∀ y : S10000x64.Idx, (y 0).val < 400 * n → d y = kOUT m c y

/-- One more band of the output. -/
theorem out_step (c : Dev nD) (t : Fin cfg0.N) (ht : 25 ≤ t.val) (Y : Vec F S10000x64 .f32) (hY : AgreeOut m c (t.val - 25) Y) :
    AgreeOut m c (t.val - 24) (out6 m c t Y) := by
  have hN : t.val < 50 := lt_of_lt_of_eq t.isLt N_0
  intro y hy
  unfold out6
  rw [if_pos ht]
  have hmod : t.val % 25 = t.val - 25 := by omega
  by_cases hb : 400 * (t.val % 25) ≤ (y 0).val ∧ (y 0).val < 400 * (t.val % 25) + 400
  · rw [putRows_of_mem _ _ _ _ y hb]
    have hdiv : 25 + (y 0).val / 400 = t.val := by omega
    have e : pt (25 + (y 0).val / 400) (by have := band_lt y; omega) = t := Fin.ext hdiv
    unfold kOUT
    rw [e]
    refine congrArg _ ?_
    unfold inBand
    refine congrArg (fun r => ValueIdx.ix2 r (y 1)) (Fin.ext ?_)
    show (y 0).val - 400 * (t.val % 25) = (y 0).val % 400
    omega
  · rw [putRows_of_not_mem _ _ _ _ y hb]
    exact hY y (by omega)

/-- What the second phase may leave in the output's staging buffer at point n agrees with the output matrix on the
    bands stored so far. -/
theorem leaves6 (c : Dev nD) : ∀ (n : ℕ) (h : n < cfg0.N) (X : Vec F S10000x64 .f32), 25 ≤ n →
    (rdat m c).Leaves 6 ⟨n, h⟩ X → AgreeOut m c (n - 24) X
  | 0, _, _, h25, _ => absurd h25 (by omega)
  | n + 1, h, X, h25, hL => by
    have hN : n + 1 < 50 := lt_of_lt_of_eq h N_0
    obtain ⟨Y, hF, hA⟩ := hL
    rw [after6] at hA
    subst hA
    refine out_step m c ⟨n + 1, h⟩ h25 Y ?_
    by_cases h25' : n + 1 = 25
    · intro y hy
      exfalso
      have : (⟨n + 1, h⟩ : Fin cfg0.N).val - 25 = 0 := by show n + 1 - 25 = 0; omega
      rw [this] at hy
      omega
    · rcases ((rdat m c).finds_of_pos (fetch6 _) (Nat.succ_ne_zero n) Y).mp hF with hfl | hL'
      · exact absurd ((flush0_6 _).mp hfl) (by show ¬ n % 50 = 49; omega)
      · have h' := leaves6 c n _ Y (by omega) hL'
        have e : (⟨n + 1, h⟩ : Fin cfg0.N).val - 25 = n - 24 := by show n + 1 - 25 = n - 24; omega
        rw [e]
        exact h'

/-- Below the last point nothing is written back to the output array. -/
theorem arrAt6_below (c : Dev nD) : ∀ (n : ℕ), n ≤ 49 → ∀ G, (rdat m c).ArrAt 6 n G ↔ G = (rdat m c).A 6
  | 0, _, G => Iff.rfl
  | n + 1, hn, G => by
    simp only [Pipeline.RDat.ArrAt]
    have h : n < cfg0.N := lt_of_lt_of_eq (by omega : n < 50) N_0.symm
    rw [dif_pos h, if_neg (fun hfl => absurd ((flush0_6 ⟨n, h⟩).mp hfl) (by show ¬ n % 50 = 49; omega))]
    exact arrAt6_below c n (by omega) G

/-- One step of the array's history at a point that writes back. -/
theorem arrAt6_succ (c : Dev nD) (n : ℕ) (h : n < cfg0.N) (hfl : (cfg0.win 6).flush ⟨n, h⟩ = true)
    (Fm : Buf (Elt F) ((cfg0.win 6).arr.view.loc (c.tc : Thread nD τ))) (hA : (rdat m c).ArrAt 6 (n + 1) Fm) :
    (rdat m c).ArrStep 6 ⟨n, h⟩ ((rdat m c).ArrAt 6 n) Fm := by
  simp only [Pipeline.RDat.ArrAt] at hA
  rw [dif_pos h, if_pos hfl] at hA
  exact hA

/-- The last point. -/
abbrev t49 : Fin cfg0.N := pt 49 (by omega)

/-- The output's block at the last point is the whole array: cutting a matrix to the block's moved part and reading the
    block off the matrix are the same. -/
theorem hcut6 (G : Vec F S10000x64 .f32) :
    (cfg0.win 6).cut (grid0.coords t49) G = ((cfg0.win 6).blk t49).view.read (Elt F) G := by
  funext j
  show G j = G (((cfg0.win 6).blk t49).view.emb j)
  refine congrArg G (funext fun a => Fin.ext ?_)
  have e := index6_eq t49
  match a with
  | ⟨0, _⟩ => show (j 0).val = win0_6.index t49 (0 : Fin 2) * 10000 + 1 * (j 0).val; rw [show win0_6.index t49 (0 : Fin 2) = 0 from congrFun e 0]; omega
  | ⟨1, _⟩ => show (j 1).val = win0_6.index t49 (1 : Fin 2) * 64 + 1 * (j 1).val; rw [show win0_6.index t49 (1 : Fin 2) = 0 from congrFun e 1]; omega

/-- Every index of the output array lies in that block. -/
theorem hmem6 (i : S10000x64.Idx) : i ∈ ((cfg0.win 6).blk t49).view.set := by
  show i ∈ ((View.whole main_v2).slice (win0_6.rect t49)).set
  rw [View.set_slice_whole, Rect.mem_set_unit]
  have e := index6_eq t49
  intro a
  match a with
  | ⟨0, _⟩ => show win0_6.index t49 (0 : Fin 2) * 10000 ≤ (i 0).val ∧ (i 0).val < win0_6.index t49 (0 : Fin 2) * 10000 + 10000; rw [show win0_6.index t49 (0 : Fin 2) = 0 from congrFun e 0]; have : (i 0).val < 10000 := (i 0).isLt; omega
  | ⟨1, _⟩ => show win0_6.index t49 (1 : Fin 2) * 64 ≤ (i 1).val ∧ (i 1).val < win0_6.index t49 (1 : Fin 2) * 64 + 64; rw [show win0_6.index t49 (1 : Fin 2) = 0 from congrFun e 1]; have : (i 1).val < 64 := (i 1).isLt; omega

/-- The output array ends holding the output matrix. -/
theorem final6 (c : Dev nD) (Fm : Buf (Elt F) ((cfg0.win 6).arr.view.loc (c.tc : Thread nD τ)))
    (h : (rdat m c).ArrAt 6 cfg0.N Fm) : Fm = kOUT m c := by
  have h' : (rdat m c).ArrAt 6 (49 + 1) Fm :=
    (congrArg (fun n => (rdat m c).ArrAt 6 n Fm) (show cfg0.N = 49 + 1 from N_0)).mp h
  obtain ⟨G₀, X, -, hL, hF⟩ := arrAt6_succ m c 49 t49.isLt ((flush0_6 ⟨49, t49.isLt⟩).mpr rfl) Fm h'
  have hX : X = kOUT m c :=
    funext fun y => leaves6 m c 49 _ X (by omega) hL y (by have : (y 0).val < 10000 := (y 0).isLt; omega)
  rw [hF, hX]
  refine (congrArg (fun w => ((cfg0.win 6).blk t49).view.write (Elt F) G₀ w Finset.univ) (hcut6 (kOUT m c))).trans ?_
  rw [View.write_read_eq_piecewise]
  funext i
  refine Finset.piecewise_eq_of_mem _ _ _ ?_
  rw [View.setOn_univ]
  exact hmem6 i

/-- The run with the output array named: it ends holding the output matrix, the argument arrays as launched. -/
theorem run_value : θ_run defs (onTc (τ := τ) (main (F := F))) ⟨m, fun _ => 0, ρ⟩ (fun r => ∀ c : Dev nD,
      r.2.mem ((c.tc : Thread nD τ).loc main_v2) = kOUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨final6 m c _ ((h c).1 6),
      (Eq.mp (congrFun ((rdat m c).ArrAt_in 0 rfl _) _) ((h c).1 0)).trans ((A_eq m c 0).trans (V_main_arg0 m c)),
      (Eq.mp (congrFun ((rdat m c).ArrAt_in 1 rfl _) _) ((h c).1 1)).trans ((A_eq m c 1).trans (V_main_arg1 m c)),
      (Eq.mp (congrFun ((rdat m c).ArrAt_in 2 rfl _) _) ((h c).1 2)).trans ((A_eq m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((A_eq m c 4).trans (V_main_arg4 m c)),
      ((h c).2 main_arg5 (Pipeline.mem_restRefs_of main_arg5 (by decide) (by decide))).trans (V_main_arg5 m c)⟩)
    (run_main m ρ)

end Cert.KernelIdeal.Hand

end
-- ==== Proof.lean ====
/- The certificate of a two-layer graph convolution kernel against its reference,
     out = relu(adj · (relu(adj · (x · W1) + b1) · W2) + b2).

   The kernel runs a 2 × 25 grid over one stripe of 400 rows of the adjacency matrix per point. At the first point it
   stores the support x · W1 in a scratch buffer; in the first phase point j stores band j (rows 400 j … 400 j + 399) of
   the hidden matrix relu(adj · support + b1) · W2 in a second scratch buffer; in the second phase point 25 + j stores band j
   of the output relu(adj · hidden + b2) in the output's staging buffer, which is written back once, after the last point.
   The frames follow from the run of the body at every point under an invariant that names what both scratch buffers
   hold; the output array's final contents are the band-by-band output matrix; entry by entry that matrix and the
   reference's result are the same finite sums over the extended reals, in the same grouping, so no law beyond
   reading a product as its sum is used and the precondition is never opened. The ideal pass rewrote nothing, so the
   kernel's idealization is its own text. -/
import proofs.«133060_g3075196584310_cont_9to1_627_5_alg».proof.Defs
import proofs.«133060_g3075196584310_cont_9to1_627_5_alg».proof.Proof.Gen.Kernel
import proofs.«133060_g3075196584310_cont_9to1_627_5_alg».proof.Proof.Gen.KernelIdeal
import proofs.«133060_g3075196584310_cont_9to1_627_5_alg».proof.Proof.Gen.ReferenceIdeal
import proofs.«133060_g3075196584310_cont_9to1_627_5_alg».proof.Proof.Gen.ReferenceIdeal.Run
import proofs.«133060_g3075196584310_cont_9to1_627_5_alg».proof.Proof.Gen.Pre_finite_inputs
import proofs.«133060_g3075196584310_cont_9to1_627_5_alg».proof.Proof.Spec
import proofs.«133060_g3075196584310_cont_9to1_627_5_alg».proof.Proof.RefMath
import proofs.«133060_g3075196584310_cont_9to1_627_5_alg».proof.Proof.KValue
import proofs.«133060_g3075196584310_cont_9to1_627_5_alg».proof.Proof.HandKernel.Run
import proofs.«133060_g3075196584310_cont_9to1_627_5_alg».proof.Proof.HandKernelIdeal.Final
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the network's value of the arguments. -/
theorem algebraic : Cert.algebraic_KernelIdeal_ReferenceIdeal := by
  intro m ρ m' ρ' _ hagree
  refine ⟨fun c => Cert.KernelIdeal.Hand.kOUT (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2,
    Cert.Net.ref_eq]
  exact (Cert.KernelIdeal.KValue.kOUT_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
